-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x80 : Shape := ⟨3, ![4, 100, 80]⟩
abbrev S4x100x128x128 : Shape := ⟨4, ![4, 100, 128, 128]⟩
abbrev S4x20x128x128 : Shape := ⟨4, ![4, 20, 128, 128]⟩
abbrev S4x20 : Shape := ⟨2, ![4, 20]⟩
abbrev S_ : Shape := ⟨0, ![]⟩

class Facts : Prop where
  bcast_S_S4x100x80 : S_.BroadcastsInDim S4x100x80 (![] : Fin 0 → Fin S4x100x80.rank)
  reducesTo_S4x100x80_S_d0_1_2 : S4x100x80.ReducesTo [0, 1, 2] S_
  h_S_ : 0 < S_.numel
  bcast_S_S4x100x128x128 : S_.BroadcastsInDim S4x100x128x128 (![] : Fin 0 → Fin S4x100x128x128.rank)
  reducesTo_S4x100x128x128_S_d0_1_2_3 : S4x100x128x128.ReducesTo [0, 1, 2, 3] S_
  bcast_S_S4x20x128x128 : S_.BroadcastsInDim S4x20x128x128 (![] : Fin 0 → Fin S4x20x128x128.rank)
  reducesTo_S4x20x128x128_S_d0_1_2_3 : S4x20x128x128.ReducesTo [0, 1, 2, 3] S_

variable [Facts]

def fn {F : FTy → Type} [FloatOps F] (main_arg0 : FVec F S4x100x80 .f32) (main_arg1 : FVec F S4x100x128x128 .f32) (main_arg2 : FVec F S4x20x128x128 .f32) (main_arg3 : IVec S4x20 32) : IVec S_ 1 :=
  let main_v0 : FVec F S4x100x80 .f32 := Host.absf main_arg0
  let main_cst : FVec F S_ .f32 := constant S_ .f32 0x7F800000#32
  let main_v1 : FVec F S4x100x80 .f32 := broadcastInDim S4x100x80 ![] bcast_S_S4x100x80 main_cst
  let main_v2 : IVec S4x100x80 1 := cmpf .olt main_v0 main_v1
  let main_c : IVec S_ 1 := constantI S_ 1 1#1
  let main_v3 : IVec S_ 1 := (fun x v => Host.reduce IntOp.andi x v reducesTo_S4x100x80_S_d0_1_2 h_S_) main_v2 main_c
  let main_v4 : FVec F S4x100x128x128 .f32 := Host.absf main_arg1
  let main_cst_0 : FVec F S_ .f32 := constant S_ .f32 0x7F800000#32
  let main_v5 : FVec F S4x100x128x128 .f32 := broadcastInDim S4x100x128x128 ![] bcast_S_S4x100x128x128 main_cst_0
  let main_v6 : IVec S4x100x128x128 1 := cmpf .olt main_v4 main_v5
  let main_c_1 : IVec S_ 1 := constantI S_ 1 1#1
  let main_v7 : IVec S_ 1 := (fun x v => Host.reduce IntOp.andi x v reducesTo_S4x100x128x128_S_d0_1_2_3 h_S_) main_v6 main_c_1
  let main_v8 : IVec S_ 1 := andi main_v3 main_v7
  let main_v9 : FVec F S4x20x128x128 .f32 := Host.absf main_arg2
  let main_cst_2 : FVec F S_ .f32 := constant S_ .f32 0x7F800000#32
  let main_v10 : FVec F S4x20x128x128 .f32 := broadcastInDim S4x20x128x128 ![] bcast_S_S4x20x128x128 main_cst_2
  let main_v11 : IVec S4x20x128x128 1 := cmpf .olt main_v9 main_v10
  let main_c_3 : IVec S_ 1 := constantI S_ 1 1#1
  let main_v12 : IVec S_ 1 := (fun x v => Host.reduce IntOp.andi x v reducesTo_S4x20x128x128_S_d0_1_2_3 h_S_) main_v11 main_c_3
  let main_v13 : IVec S_ 1 := andi main_v8 main_v12
  main_v13
-- ==== Kernel.lean ====
abbrev S4x100x80 : Shape := ⟨3, ![4, 100, 80]⟩
abbrev S4x100x128x128 : Shape := ⟨4, ![4, 100, 128, 128]⟩
abbrev S4x20x128x128 : Shape := ⟨4, ![4, 20, 128, 128]⟩
abbrev S4x20 : Shape := ⟨2, ![4, 20]⟩
abbrev S4x100x16384 : Shape := ⟨3, ![4, 100, 16384]⟩
abbrev S4x20x16384 : Shape := ⟨3, ![4, 20, 16384]⟩
abbrev S4x100x20 : Shape := ⟨3, ![4, 100, 20]⟩
abbrev S1x100x512 : Shape := ⟨3, ![1, 100, 512]⟩
abbrev S1x20x512 : Shape := ⟨3, ![1, 20, 512]⟩
abbrev S1x100x20 : Shape := ⟨3, ![1, 100, 20]⟩
abbrev S100x20 : Shape := ⟨2, ![100, 20]⟩
abbrev S100x1 : Shape := ⟨2, ![100, 1]⟩
abbrev S20x1 : Shape := ⟨2, ![20, 1]⟩
abbrev S100x512 : Shape := ⟨2, ![100, 512]⟩
abbrev S20x512 : Shape := ⟨2, ![20, 512]⟩
abbrev S100x1x512 : Shape := ⟨3, ![100, 1, 512]⟩
abbrev S100x20x512 : Shape := ⟨3, ![100, 20, 512]⟩
abbrev S512x20 : Shape := ⟨2, ![512, 20]⟩
abbrev S100 : Shape := ⟨1, ![100]⟩
abbrev S20 : Shape := ⟨1, ![20]⟩
abbrev S1x20 : Shape := ⟨2, ![1, 20]⟩
abbrev S_ : Shape := ⟨0, ![]⟩
abbrev S4x100 : Shape := ⟨2, ![4, 100]⟩
abbrev S4x100x1 : Shape := ⟨3, ![4, 100, 1]⟩
abbrev S4x1x20 : Shape := ⟨3, ![4, 1, 20]⟩
abbrev S4x100x20x1 : Shape := ⟨4, ![4, 100, 20, 1]⟩
abbrev S1 : Shape := ⟨1, ![1]⟩
abbrev S1x1x1x1 : Shape := ⟨4, ![1, 1, 1, 1]⟩

abbrev nBuf : Space → Nat
  | .hbm => 50
  | .vmem => 10
  | .smem => 0
  | _ => 0

abbrev bufTy : (tb : Table) → Fin (tcTables nBuf tb) → BufTy
  | .hbm, ⟨0, _⟩ => ⟨S4x100x80, .f32⟩
  | .hbm, ⟨1, _⟩ => ⟨S4x100x128x128, .f32⟩
  | .hbm, ⟨2, _⟩ => ⟨S4x20x128x128, .f32⟩
  | .hbm, ⟨3, _⟩ => ⟨S4x20, .i32⟩
  | .hbm, ⟨4, _⟩ => ⟨S4x100x16384, .f32⟩
  | .hbm, ⟨5, _⟩ => ⟨S4x20x16384, .f32⟩
  | .hbm, ⟨6, _⟩ => ⟨S4x100x20, .f32⟩
  | .hbm, ⟨7, _⟩ => ⟨S_, .f32⟩
  | .hbm, ⟨8, _⟩ => ⟨S4x100, .f32⟩
  | .hbm, ⟨9, _⟩ => ⟨S_, .f32⟩
  | .hbm, ⟨10, _⟩ => ⟨S4x100, .f32⟩
  | .hbm, ⟨11, _⟩ => ⟨S4x100, .f32⟩
  | .hbm, ⟨12, _⟩ => ⟨S4x100x1, .f32⟩
  | .hbm, ⟨13, _⟩ => ⟨S4x100x80, .f32⟩
  | .hbm, ⟨14, _⟩ => ⟨S4x100x80, .f32⟩
  | .hbm, ⟨15, _⟩ => ⟨S4x100x80, .f32⟩
  | .hbm, ⟨16, _⟩ => ⟨S_, .f32⟩
  | .hbm, ⟨17, _⟩ => ⟨S4x100, .f32⟩
  | .hbm, ⟨18, _⟩ => ⟨S4x100x1, .f32⟩
  | .hbm, ⟨19, _⟩ => ⟨S4x100x80, .f32⟩
  | .hbm, ⟨20, _⟩ => ⟨S4x100x80, .f32⟩
  | .hbm, ⟨21, _⟩ => ⟨S4x1x20, .i32⟩
  | .hbm, ⟨22, _⟩ => ⟨S4x100x20, .i32⟩
  | .hbm, ⟨23, _⟩ => ⟨S_, .i32⟩
  | .hbm, ⟨24, _⟩ => ⟨S4x100x20, .i32⟩
  | .hbm, ⟨25, _⟩ => ⟨S4x100x20, .i1⟩
  | .hbm, ⟨26, _⟩ => ⟨S_, .i32⟩
  | .hbm, ⟨27, _⟩ => ⟨S4x100x20, .i32⟩
  | .hbm, ⟨28, _⟩ => ⟨S4x100x20, .i32⟩
  | .hbm, ⟨29, _⟩ => ⟨S4x100x20, .i32⟩
  | .hbm, ⟨30, _⟩ => ⟨S4x100x20x1, .i32⟩
  | .hbm, ⟨31, _⟩ => ⟨S1, .i32⟩
  | .hbm, ⟨32, _⟩ => ⟨S_, .i32⟩
  | .hbm, ⟨33, _⟩ => ⟨S4x100x20x1, .i32⟩
  | .hbm, ⟨34, _⟩ => ⟨S4x100x20x1, .i1⟩
  | .hbm, ⟨35, _⟩ => ⟨S1x1x1x1, .i32⟩
  | .hbm, ⟨36, _⟩ => ⟨S4x100x20x1, .i32⟩
  | .hbm, ⟨37, _⟩ => ⟨S4x100x20x1, .i1⟩
  | .hbm, ⟨38, _⟩ => ⟨S4x100x20x1, .i1⟩
  | .hbm, ⟨39, _⟩ => ⟨S_, .i1⟩
  | .hbm, ⟨40, _⟩ => ⟨S4x100x20, .i1⟩
  | .hbm, ⟨41, _⟩ => ⟨S4x100x20, .f32⟩
  | .hbm, ⟨42, _⟩ => ⟨S_, .f32⟩
  | .hbm, ⟨43, _⟩ => ⟨S4x100x20, .f32⟩
  | .hbm, ⟨44, _⟩ => ⟨S4x100x20, .f32⟩
  | .hbm, ⟨45, _⟩ => ⟨S4x100x20, .f32⟩
  | .hbm, ⟨46, _⟩ => ⟨S_, .f32⟩
  | .hbm, ⟨47, _⟩ => ⟨S4x100x20, .f32⟩
  | .hbm, ⟨48, _⟩ => ⟨S4x100x20, .f32⟩
  | .hbm, ⟨49, _⟩ => ⟨S4x100x20, .f32⟩
  | .local _ .vmem, ⟨0, _⟩ => ⟨S1x100x512, .f32⟩
  | .local _ .vmem, ⟨1, _⟩ => ⟨S1x100x512, .f32⟩
  | .local _ .vmem, ⟨2, _⟩ => ⟨S1x20x512, .f32⟩
  | .local _ .vmem, ⟨3, _⟩ => ⟨S1x20x512, .f32⟩
  | .local _ .vmem, ⟨4, _⟩ => ⟨S1x100x20, .f32⟩
  | .local _ .vmem, ⟨5, _⟩ => ⟨S1x100x20, .f32⟩
  | .local _ .vmem, ⟨6, _⟩ => ⟨S100x20, .f32⟩
  | .local _ .vmem, ⟨7, _⟩ => ⟨S100x20, .f32⟩
  | .local _ .vmem, ⟨8, _⟩ => ⟨S100x1, .f32⟩
  | .local _ .vmem, ⟨9, _⟩ => ⟨S20x1, .f32⟩
  | _, _ => ⟨S4x100x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v16 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v42 : BitVec 1 := Scalar.cmpi .eq arg1 c31_i32
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x100x128x128_S4x100x16384 : S4x100x128x128.ShapeCasts S4x100x16384
  shapeCasts_S4x20x128x128_S4x20x16384 : S4x20x128x128.ShapeCasts S4x20x16384
  inb_S100x20_S100x20_0_0 : ∀ a, (![0, 0] : Fin 2 → Nat) a + S100x20.size a ≤ S100x20.size a
  h_S100x20 : 0 < S100x20.numel
  shapeCasts_S100x20_S100x20 : S100x20.ShapeCasts S100x20
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S1x100x512_S1x100x512_0_0_0 : ∀ a, (![0, 0, 0] : Fin 3 → Nat) a + S1x100x512.size a ≤ S1x100x512.size a
  h_S1x100x512 : 0 < S1x100x512.numel
  shapeCasts_S1x100x512_S100x512 : S1x100x512.ShapeCasts S100x512
  inb_S1x20x512_S1x20x512_0_0_0 : ∀ a, (![0, 0, 0] : Fin 3 → Nat) a + S1x20x512.size a ≤ S1x20x512.size a
  h_S1x20x512 : 0 < S1x20x512.numel
  shapeCasts_S1x20x512_S20x512 : S1x20x512.ShapeCasts S20x512
  shapeCasts_S100x512_S100x1x512 : S100x512.ShapeCasts S100x1x512
  shapeCasts_S20x512_S1x20x512 : S20x512.ShapeCasts S1x20x512
  broadcasts_S100x1x512_S100x20x512 : S100x1x512.Broadcasts S100x20x512
  broadcasts_S1x20x512_S100x20x512 : S1x20x512.Broadcasts S100x20x512
  reduces_S100x20x512_S100x20 : S100x20x512.Reduces [2] S100x20
  bitsLt_bf16_f32 : FTy.bits .bf16 < FTy.bits .f32
  transposes_S20x512_p1_0_S512x20 : S20x512.Transposes [1, 0] S512x20
  reduces_S100x512_S100 : S100x512.Reduces [1] S100
  shapeCasts_S100_S100x1 : S100.ShapeCasts S100x1
  reduces_S20x512_S20 : S20x512.Reduces [1] S20
  shapeCasts_S20_S20x1 : S20.ShapeCasts S20x1
  transposes_S20x1_p1_0_S1x20 : S20x1.Transposes [1, 0] S1x20
  broadcasts_S100x1_S100x20 : S100x1.Broadcasts S100x20
  broadcasts_S1x20_S100x20 : S1x20.Broadcasts S100x20
  inb_S1x100x20_S1x100x20_0_0_0 : ∀ a, (![0, 0, 0] : Fin 3 → Nat) a + S1x100x20.size a ≤ S1x100x20.size a
  h_S1x100x20 : 0 < S1x100x20.numel
  shapeCasts_S1x100x20_S100x20 : S1x100x20.ShapeCasts S100x20
  shapeCasts_S100x20_S1x100x20 : S100x20.ShapeCasts S1x100x20
  reducesTo_S4x100x80_S4x100_d2 : S4x100x80.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x80_0_1_2 : S4x100x1.BroadcastsInDim S4x100x80 (![0, 1, 2] : Fin 3 → Fin S4x100x80.rank)
  bcast_S4x20_S4x1x20_0_2 : S4x20.BroadcastsInDim S4x1x20 (![0, 2] : Fin 2 → Fin S4x1x20.rank)
  bcast_S4x1x20_S4x100x20_0_1_2 : S4x1x20.BroadcastsInDim S4x100x20 (![0, 1, 2] : Fin 3 → Fin S4x100x20.rank)
  bcast_S_S4x100x20 : S_.BroadcastsInDim S4x100x20 (![] : Fin 0 → Fin S4x100x20.rank)
  shapeCasts_S4x100x20_S4x100x20x1 : S4x100x20.ShapeCasts S4x100x20x1
  bcast_S_S4x100x20x1 : S_.BroadcastsInDim S4x100x20x1 (![] : Fin 0 → Fin S4x100x20x1.rank)
  bcast_S1_S1x1x1x1_3 : S1.BroadcastsInDim S1x1x1x1 (![3] : Fin 1 → Fin S1x1x1x1.rank)
  bcast_S1x1x1x1_S4x100x20x1_0_1_2_3 : S1x1x1x1.BroadcastsInDim S4x100x20x1 (![0, 1, 2, 3] : Fin 4 → Fin S4x100x20x1.rank)
  reducesTo_S4x100x20x1_S4x100x20_d3 : S4x100x20x1.ReducesTo [3] S4x100x20
  dot_S100x512_S512x20_S100x20_1_0_0_1_n_n_wf : DotDims.WF S100x512 S512x20 S100x20 [1] [0] [0] [1] [] []
  gather_S4x100x80_S4x100x20x1_S4x100x20_n_2_01_01_2_3_111_wf : GatherDims.WF S4x100x80 S4x100x20x1 S4x100x20 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x512.size a ≤ S4x100x16384.size a
  hwx0_0 : ∀ i : grid0.Coords, EltTy.bits .f32 = 32 ∨ (Rect.block (s := S4x100x16384) S1x100x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x20x512.size a ≤ S4x20x16384.size a
  hwx0_1 : ∀ i : grid0.Coords, EltTy.bits .f32 = 32 ∨ (Rect.block (s := S4x20x16384) S1x20x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x20.size a ≤ S4x100x20.size a
  hwx0_2 : ∀ i : grid0.Coords, EltTy.bits .f32 = 32 ∨ (Rect.block (s := S4x100x20) S1x100x20.size (cc0_transform_2 i) (hinb0_2 i)).WholeWords (EltTy.packing .f32)

variable [Facts₀]

def dot_S100x512_S512x20_S100x20_1_0_0_1_n_n : DotDims S100x512 S512x20 S100x20 where
  lhsContracting := [1]
  rhsContracting := [0]
  lhsNonContracting := [0]
  rhsNonContracting := [1]
  lhsBatch := []
  rhsBatch := []
  wf := dot_S100x512_S512x20_S100x20_1_0_0_1_n_n_wf
def gather_S4x100x80_S4x100x20x1_S4x100x20_n_2_01_01_2_3_111 : GatherDims S4x100x80 S4x100x20x1 S4x100x20 where
  offsetDims := []
  collapsedSliceDims := [2]
  operandBatchingDims := [0, 1]
  startIndicesBatchingDims := [0, 1]
  startIndexMap := [2]
  indexVectorDim := 3
  sliceSizes := ![1, 1, 1]
  wf := gather_S4x100x80_S4x100x20x1_S4x100x20_n_2_01_01_2_3_111_wf

abbrev win0_0 : Pipeline.Window sig grid0 :=
  Pipeline.Window.ofSpec (Memref.whole main_v0) S1x100x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x20x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x100x80 : Shape := ⟨3, ![4, 100, 80]⟩
abbrev S4x100x128x128 : Shape := ⟨4, ![4, 100, 128, 128]⟩
abbrev S4x20x128x128 : Shape := ⟨4, ![4, 20, 128, 128]⟩
abbrev S4x20 : Shape := ⟨2, ![4, 20]⟩
abbrev S_ : Shape := ⟨0, ![]⟩
abbrev S4x100 : Shape := ⟨2, ![4, 100]⟩
abbrev S4x100x1 : Shape := ⟨3, ![4, 100, 1]⟩
abbrev S4x1x20 : Shape := ⟨3, ![4, 1, 20]⟩
abbrev S4x100x20 : Shape := ⟨3, ![4, 100, 20]⟩
abbrev S4x100x20x1 : Shape := ⟨4, ![4, 100, 20, 1]⟩
abbrev S1 : Shape := ⟨1, ![1]⟩
abbrev S1x1x1x1 : Shape := ⟨4, ![1, 1, 1, 1]⟩
abbrev S4x100x16384 : Shape := ⟨3, ![4, 100, 16384]⟩
abbrev S4x20x16384 : Shape := ⟨3, ![4, 20, 16384]⟩
abbrev S4x100x1x16384 : Shape := ⟨4, ![4, 100, 1, 16384]⟩
abbrev S4x1x20x16384 : Shape := ⟨4, ![4, 1, 20, 16384]⟩
abbrev S4x100x20x16384 : Shape := ⟨4, ![4, 100, 20, 16384]⟩

abbrev nBuf : Space → Nat
  | .hbm => 87
  | .vmem => 0
  | .smem => 0
  | _ => 0

abbrev bufTy : (tb : Table) → Fin (tcTables nBuf tb) → BufTy
  | .hbm, ⟨0, _⟩ => ⟨S4x100x80, .f32⟩
  | .hbm, ⟨1, _⟩ => ⟨S4x100x128x128, .f32⟩
  | .hbm, ⟨2, _⟩ => ⟨S4x20x128x128, .f32⟩
  | .hbm, ⟨3, _⟩ => ⟨S4x20, .i32⟩
  | .hbm, ⟨4, _⟩ => ⟨S_, .f32⟩
  | .hbm, ⟨5, _⟩ => ⟨S4x100, .f32⟩
  | .hbm, ⟨6, _⟩ => ⟨S_, .f32⟩
  | .hbm, ⟨7, _⟩ => ⟨S4x100, .f32⟩
  | .hbm, ⟨8, _⟩ => ⟨S4x100, .f32⟩
  | .hbm, ⟨9, _⟩ => ⟨S4x100x1, .f32⟩
  | .hbm, ⟨10, _⟩ => ⟨S4x100x80, .f32⟩
  | .hbm, ⟨11, _⟩ => ⟨S4x100x80, .f32⟩
  | .hbm, ⟨12, _⟩ => ⟨S4x100x80, .f32⟩
  | .hbm, ⟨13, _⟩ => ⟨S_, .f32⟩
  | .hbm, ⟨14, _⟩ => ⟨S4x100, .f32⟩
  | .hbm, ⟨15, _⟩ => ⟨S4x100x1, .f32⟩
  | .hbm, ⟨16, _⟩ => ⟨S4x100x80, .f32⟩
  | .hbm, ⟨17, _⟩ => ⟨S4x100x80, .f32⟩
  | .hbm, ⟨18, _⟩ => ⟨S4x1x20, .i32⟩
  | .hbm, ⟨19, _⟩ => ⟨S4x100x20, .i32⟩
  | .hbm, ⟨20, _⟩ => ⟨S_, .i32⟩
  | .hbm, ⟨21, _⟩ => ⟨S4x100x20, .i32⟩
  | .hbm, ⟨22, _⟩ => ⟨S4x100x20, .i1⟩
  | .hbm, ⟨23, _⟩ => ⟨S_, .i32⟩
  | .hbm, ⟨24, _⟩ => ⟨S4x100x20, .i32⟩
  | .hbm, ⟨25, _⟩ => ⟨S4x100x20, .i32⟩
  | .hbm, ⟨26, _⟩ => ⟨S4x100x20, .i32⟩
  | .hbm, ⟨27, _⟩ => ⟨S4x100x20x1, .i32⟩
  | .hbm, ⟨28, _⟩ => ⟨S1, .i32⟩
  | .hbm, ⟨29, _⟩ => ⟨S_, .i32⟩
  | .hbm, ⟨30, _⟩ => ⟨S4x100x20x1, .i32⟩
  | .hbm, ⟨31, _⟩ => ⟨S4x100x20x1, .i1⟩
  | .hbm, ⟨32, _⟩ => ⟨S1x1x1x1, .i32⟩
  | .hbm, ⟨33, _⟩ => ⟨S4x100x20x1, .i32⟩
  | .hbm, ⟨34, _⟩ => ⟨S4x100x20x1, .i1⟩
  | .hbm, ⟨35, _⟩ => ⟨S4x100x20x1, .i1⟩
  | .hbm, ⟨36, _⟩ => ⟨S_, .i1⟩
  | .hbm, ⟨37, _⟩ => ⟨S4x100x20, .i1⟩
  | .hbm, ⟨38, _⟩ => ⟨S4x100x20, .f32⟩
  | .hbm, ⟨39, _⟩ => ⟨S_, .f32⟩
  | .hbm, ⟨40, _⟩ => ⟨S4x100x20, .f32⟩
  | .hbm, ⟨41, _⟩ => ⟨S4x100x20, .f32⟩
  | .hbm, ⟨42, _⟩ => ⟨S4x100x20, .f32⟩
  | .hbm, ⟨43, _⟩ => ⟨S4x100x16384, .f32⟩
  | .hbm, ⟨44, _⟩ => ⟨S4x20x16384, .f32⟩
  | .hbm, ⟨45, _⟩ => ⟨S4x100x1x16384, .f32⟩
  | .hbm, ⟨46, _⟩ => ⟨S4x1x20x16384, .f32⟩
  | .hbm, ⟨47, _⟩ => ⟨S4x100x20x16384, .f32⟩
  | .hbm, ⟨48, _⟩ => ⟨S4x100x20x16384, .f32⟩
  | .hbm, ⟨49, _⟩ => ⟨S4x100x20x16384, .f32⟩
  | .hbm, ⟨50, _⟩ => ⟨S4x100x20x16384, .f32⟩
  | .hbm, ⟨51, _⟩ => ⟨S_, .f32⟩
  | .hbm, ⟨52, _⟩ => ⟨S4x100x20, .f32⟩
  | .hbm, ⟨53, _⟩ => ⟨S4x100x20, .f32⟩
  | .hbm, ⟨54, _⟩ => ⟨S_, .f32⟩
  | .hbm, ⟨55, _⟩ => ⟨S4x100, .f32⟩
  | .hbm, ⟨56, _⟩ => ⟨S4x100x1, .f32⟩
  | .hbm, ⟨57, _⟩ => ⟨S_, .f32⟩
  | .hbm, ⟨58, _⟩ => ⟨S4x20, .f32⟩
  | .hbm, ⟨59, _⟩ => ⟨S4x1x20, .f32⟩
  | .hbm, ⟨60, _⟩ => ⟨S4x100x20, .f32⟩
  | .hbm, ⟨61, _⟩ => ⟨S4x100x20, .f32⟩
  | .hbm, ⟨62, _⟩ => ⟨S4x100x20, .f32⟩
  | .hbm, ⟨63, _⟩ => ⟨S_, .f32⟩
  | .hbm, ⟨64, _⟩ => ⟨S4x100x20, .f32⟩
  | .hbm, ⟨65, _⟩ => ⟨S4x100x20, .f32⟩
  | .hbm, ⟨66, _⟩ => ⟨S_, .f32⟩
  | .hbm, ⟨67, _⟩ => ⟨S4x100x20, .f32⟩
  | .hbm, ⟨68, _⟩ => ⟨S4x100x20, .f32⟩
  | .hbm, ⟨69, _⟩ => ⟨S_, .f32⟩
  | .hbm, ⟨70, _⟩ => ⟨S4x100x20, .f32⟩
  | .hbm, ⟨71, _⟩ => ⟨S4x100x20, .f32⟩
  | .hbm, ⟨72, _⟩ => ⟨S4x100x20, .f32⟩
  | .hbm, ⟨73, _⟩ => ⟨S_, .f32⟩
  | .hbm, ⟨74, _⟩ => ⟨S4x100x20, .f32⟩
  | .hbm, ⟨75, _⟩ => ⟨S4x100x20, .f32⟩
  | .hbm, ⟨76, _⟩ => ⟨S_, .f32⟩
  | .hbm, ⟨77, _⟩ => ⟨S4x100x20, .f32⟩
  | .hbm, ⟨78, _⟩ => ⟨S4x100x20, .f32⟩
  | .hbm, ⟨79, _⟩ => ⟨S_, .f32⟩
  | .hbm, ⟨80, _⟩ => ⟨S4x100x20, .f32⟩
  | .hbm, ⟨81, _⟩ => ⟨S4x100x20, .f32⟩
  | .hbm, ⟨82, _⟩ => ⟨S4x100x20, .f32⟩
  | .hbm, ⟨83, _⟩ => ⟨S_, .f32⟩
  | .hbm, ⟨84, _⟩ => ⟨S4x100x20, .f32⟩
  | .hbm, ⟨85, _⟩ => ⟨S4x100x20, .f32⟩
  | .hbm, ⟨86, _⟩ => ⟨S4x100x20, .f32⟩
  | _, _ => ⟨S4x100x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_8 : Ref sig .tc := ⟨.hbm, 73, rfl⟩
abbrev main_v39 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_v42 : Ref sig .tc := ⟨.hbm, 78, rfl⟩
abbrev main_cst_10 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_11 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩

abbrev nD : Nat := 1
abbrev τ : Topo := Topo.v7x

variable {F : FTy → Type} [FloatOps F]

class Facts₀ : Prop where
  reducesTo_S4x100x80_S4x100_d2 : S4x100x80.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x80_0_1_2 : S4x100x1.BroadcastsInDim S4x100x80 (![0, 1, 2] : Fin 3 → Fin S4x100x80.rank)
  bcast_S4x20_S4x1x20_0_2 : S4x20.BroadcastsInDim S4x1x20 (![0, 2] : Fin 2 → Fin S4x1x20.rank)
  bcast_S4x1x20_S4x100x20_0_1_2 : S4x1x20.BroadcastsInDim S4x100x20 (![0, 1, 2] : Fin 3 → Fin S4x100x20.rank)
  bcast_S_S4x100x20 : S_.BroadcastsInDim S4x100x20 (![] : Fin 0 → Fin S4x100x20.rank)
  shapeCasts_S4x100x20_S4x100x20x1 : S4x100x20.ShapeCasts S4x100x20x1
  bcast_S_S4x100x20x1 : S_.BroadcastsInDim S4x100x20x1 (![] : Fin 0 → Fin S4x100x20x1.rank)
  bcast_S1_S1x1x1x1_3 : S1.BroadcastsInDim S1x1x1x1 (![3] : Fin 1 → Fin S1x1x1x1.rank)
  bcast_S1x1x1x1_S4x100x20x1_0_1_2_3 : S1x1x1x1.BroadcastsInDim S4x100x20x1 (![0, 1, 2, 3] : Fin 4 → Fin S4x100x20x1.rank)
  reducesTo_S4x100x20x1_S4x100x20_d3 : S4x100x20x1.ReducesTo [3] S4x100x20
  shapeCasts_S4x100x128x128_S4x100x16384 : S4x100x128x128.ShapeCasts S4x100x16384
  shapeCasts_S4x20x128x128_S4x20x16384 : S4x20x128x128.ShapeCasts S4x20x16384
  bcast_S4x100x16384_S4x100x1x16384_0_1_3 : S4x100x16384.BroadcastsInDim S4x100x1x16384 (![0, 1, 3] : Fin 3 → Fin S4x100x1x16384.rank)
  bcast_S4x20x16384_S4x1x20x16384_0_2_3 : S4x20x16384.BroadcastsInDim S4x1x20x16384 (![0, 2, 3] : Fin 3 → Fin S4x1x20x16384.rank)
  bcast_S4x100x1x16384_S4x100x20x16384_0_1_2_3 : S4x100x1x16384.BroadcastsInDim S4x100x20x16384 (![0, 1, 2, 3] : Fin 4 → Fin S4x100x20x16384.rank)
  bcast_S4x1x20x16384_S4x100x20x16384_0_1_2_3 : S4x1x20x16384.BroadcastsInDim S4x100x20x16384 (![0, 1, 2, 3] : Fin 4 → Fin S4x100x20x16384.rank)
  reducesTo_S4x100x20x16384_S4x100x20_d3 : S4x100x20x16384.ReducesTo [3] S4x100x20
  reducesTo_S4x100x16384_S4x100_d2 : S4x100x16384.ReducesTo [2] S4x100
  reducesTo_S4x20x16384_S4x20_d2 : S4x20x16384.ReducesTo [2] S4x20
  bcast_S4x100x1_S4x100x20_0_1_2 : S4x100x1.BroadcastsInDim S4x100x20 (![0, 1, 2] : Fin 3 → Fin S4x100x20.rank)
  gather_S4x100x80_S4x100x20x1_S4x100x20_n_2_01_01_2_3_111_wf : GatherDims.WF S4x100x80 S4x100x20x1 S4x100x20 [] [2] [0, 1] [2] [0, 1] 3 ![1, 1, 1]
  dot_S4x100x16384_S4x20x16384_S4x100x20_2_2_1_1_0_0_wf : DotDims.WF S4x100x16384 S4x20x16384 S4x100x20 [2] [2] [1] [1] [0] [0]

variable [Facts₀]

def gather_S4x100x80_S4x100x20x1_S4x100x20_n_2_01_01_2_3_111 : GatherDims S4x100x80 S4x100x20x1 S4x100x20 where
  offsetDims := []
  collapsedSliceDims := [2]
  operandBatchingDims := [0, 1]
  startIndicesBatchingDims := [0, 1]
  startIndexMap := [2]
  indexVectorDim := 3
  sliceSizes := ![1, 1, 1]
  wf := gather_S4x100x80_S4x100x20x1_S4x100x20_n_2_01_01_2_3_111_wf
def dot_S4x100x16384_S4x20x16384_S4x100x20_2_2_1_1_0_0 : DotDims S4x100x16384 S4x20x16384 S4x100x20 where
  lhsContracting := [2]
  rhsContracting := [2]
  lhsNonContracting := [1]
  rhsNonContracting := [1]
  lhsBatch := [0]
  rhsBatch := [0]
  wf := dot_S4x100x16384_S4x20x16384_S4x100x20_2_2_1_1_0_0_wf

class Facts : Prop extends Facts₀ where

variable [Facts]
-- ==== Proof.BodyCases.lean ====
/-
  What one run of the kernel body leaves behind, case by case, as values.

  The body keeps four running totals in scratch memory: per pair (q, t) the total of |out − tgt| over the pixels
  seen so far and the total of out · tgt, per row q the total of out, per row t the total of tgt. At the first
  tile of a batch entry it first stores zeros, then adds this tile's totals; at every later tile it adds this
  tile's totals to what the tile before left; at the last tile it also writes the output block, computed from
  the four totals just stored. Each lemma below reads one buffer's final contents as the body's arithmetic
  (the payload terms) applied to the blocks it loaded.
-/
import proofs.«133816_j59287728554541_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One step of the four running totals: each total plus this tile's contribution. -/
def step (x0 : Vec F S1x100x512 .f32) (x1 : Vec F S1x20x512 .f32)
    (s : Vec F S100x20 .f32 × Vec F S100x20 .f32 × Vec F S100x1 .f32 × Vec F S20x1 .f32) :
    Vec F S100x20 .f32 × Vec F S100x20 .f32 × Vec F S100x1 .f32 × Vec F S20x1 .f32 :=
  (k0_pay10 x0 x1 s.1, k0_pay11 x0 x1 s.2.1, k0_pay1 (k0_pay12 x0 s.2.2.1), k0_pay2 (k0_pay9 x1) s.2.2.2)

/-- The four totals as the first tile resets them. -/
def zeros : Vec F S100x20 .f32 × Vec F S100x20 .f32 × Vec F S100x1 .f32 × Vec F S20x1 .f32 :=
  (k0_pay4 (F := F), k0_pay5 (F := F), k0_pay6 (F := F), k0_pay7 (F := F))

/-- A middle tile leaves the running total of absolute differences one step further. -/
theorem sB_0 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : ¬cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_B_0 c i arg2 harg2 arg3 harg3 arg4 harg4 arg5 harg5 arg6 harg6 arg7 harg7 arg8 harg8 hc0 hc1 x0 x1 xs0 xs1 xs2 xs3 = k0_pay10 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_cons_unit_zero (S := S100x20) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The last tile leaves the running total of absolute differences one step further (the output is computed from it afterwards). -/
theorem sC_0 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_C_0 c i arg2 harg2 arg3 harg3 arg4 harg4 arg5 harg5 arg6 harg6 arg7 harg7 arg8 harg8 hc0 hc1 x0 x1 xs0 xs1 xs2 xs3 = k0_pay10 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S100x20) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The first tile leaves the running total of absolute differences one step from zero: the zeros it has just stored are what it reads back. -/
theorem sA_0 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : cond0_0 i) (hc1 : ¬cond0_1 i)
    (x0 : Vec F S1x100x512 .f32) (x1 : Vec F S1x20x512 .f32) :
    sout0_A_0 c i arg2 harg2 arg3 harg3 arg4 harg4 arg5 harg5 arg6 harg6 arg7 harg7 arg8 harg8 hc0 hc1 x0 x1 = k0_pay10 x0 x1 (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S100x20) hz2]
  simp only [View.readCov_unit_zero (S := S100x20) _ hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- A middle tile leaves the running total of products one step further. -/
theorem sB_1 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : ¬cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_B_1 c i arg2 harg2 arg3 harg3 arg4 harg4 arg5 harg5 arg6 harg6 arg7 harg7 arg8 harg8 hc0 hc1 x0 x1 xs0 xs1 xs2 xs3 = k0_pay11 x0 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_cons_unit_zero (S := S100x20) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The last tile leaves the running total of products one step further (the output is computed from it afterwards). -/
theorem sC_1 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_C_1 c i arg2 harg2 arg3 harg3 arg4 harg4 arg5 harg5 arg6 harg6 arg7 harg7 arg8 harg8 hc0 hc1 x0 x1 xs0 xs1 xs2 xs3 = k0_pay11 x0 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S100x20) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The first tile leaves the running total of products one step from zero: the zeros it has just stored are what it reads back. -/
theorem sA_1 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : cond0_0 i) (hc1 : ¬cond0_1 i)
    (x0 : Vec F S1x100x512 .f32) (x1 : Vec F S1x20x512 .f32) :
    sout0_A_1 c i arg2 harg2 arg3 harg3 arg4 harg4 arg5 harg5 arg6 harg6 arg7 harg7 arg8 harg8 hc0 hc1 x0 x1 = k0_pay11 x0 x1 (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S100x20) hz2]
  simp only [View.readCov_unit_zero (S := S100x20) _ hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- A middle tile leaves the running row totals of the first block one step further. -/
theorem sB_2 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : ¬cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_B_2 c i arg2 harg2 arg3 harg3 arg4 harg4 arg5 harg5 arg6 harg6 arg7 harg7 arg8 harg8 hc0 hc1 x0 x1 xs0 xs1 xs2 xs3 = k0_pay1 (k0_pay12 x0 xs2) := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_cons_unit_zero (S := S100x1) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The last tile leaves the running row totals of the first block one step further (the output is computed from it afterwards). -/
theorem sC_2 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_C_2 c i arg2 harg2 arg3 harg3 arg4 harg4 arg5 harg5 arg6 harg6 arg7 harg7 arg8 harg8 hc0 hc1 x0 x1 xs0 xs1 xs2 xs3 = k0_pay1 (k0_pay12 x0 xs2) := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S100x1) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The first tile leaves the running row totals of the first block one step from zero: the zeros it has just stored are what it reads back. -/
theorem sA_2 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : cond0_0 i) (hc1 : ¬cond0_1 i)
    (x0 : Vec F S1x100x512 .f32) (x1 : Vec F S1x20x512 .f32) :
    sout0_A_2 c i arg2 harg2 arg3 harg3 arg4 harg4 arg5 harg5 arg6 harg6 arg7 harg7 arg8 harg8 hc0 hc1 x0 x1 = k0_pay1 (k0_pay12 x0 (k0_pay6 (F := F))) := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S100x1) hz2]
  simp only [View.readCov_unit_zero (S := S100x1) _ hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- A middle tile leaves the running row totals of the second block one step further. -/
theorem sB_3 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : ¬cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_B_3 c i arg2 harg2 arg3 harg3 arg4 harg4 arg5 harg5 arg6 harg6 arg7 harg7 arg8 harg8 hc0 hc1 x0 x1 xs0 xs1 xs2 xs3 = k0_pay2 (k0_pay9 x1) xs3 := by
  unfold sout0_B_3
  rw [View.read_writes_eq_canon _ _ _ (scover0_B_3 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_cons_unit_zero (S := S20x1) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The last tile leaves the running row totals of the second block one step further (the output is computed from it afterwards). -/
theorem sC_3 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    sout0_C_3 c i arg2 harg2 arg3 harg3 arg4 harg4 arg5 harg5 arg6 harg6 arg7 harg7 arg8 harg8 hc0 hc1 x0 x1 xs0 xs1 xs2 xs3 = k0_pay2 (k0_pay9 x1) xs3 := by
  unfold sout0_C_3
  rw [View.read_writes_eq_canon _ _ _ (scover0_C_3 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S20x1) hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The first tile leaves the running row totals of the second block one step from zero: the zeros it has just stored are what it reads back. -/
theorem sA_3 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : cond0_0 i) (hc1 : ¬cond0_1 i)
    (x0 : Vec F S1x100x512 .f32) (x1 : Vec F S1x20x512 .f32) :
    sout0_A_3 c i arg2 harg2 arg3 harg3 arg4 harg4 arg5 harg5 arg6 harg6 arg7 harg7 arg8 harg8 hc0 hc1 x0 x1 = k0_pay2 (k0_pay9 x1) (k0_pay7 (F := F)) := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S20x1) hz2]
  simp only [View.readCov_unit_zero (S := S20x1) _ hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

/-- The last tile's output block: the closing formula applied to the four totals it has just stored. -/
theorem oC_2 (c : Dev nD) (i : grid0.Coords) (arg2 : Memref sig .tc .vmem S1x100x512 .f32) (harg2 : arg2.IsWhole) (arg3 : Memref sig .tc .vmem S1x20x512 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x20 .f32) (harg6 : arg6.IsWhole) (arg7 : Memref sig .tc .vmem S100x1 .f32) (harg7 : arg7.IsWhole) (arg8 : Memref sig .tc .vmem S20x1 .f32) (harg8 : arg8.IsWhole) (hc0 : ¬cond0_0 i) (hc1 : cond0_1 i)
    (x0 : Vec F S1x100x512 .f32) (x1 : Vec F S1x20x512 .f32) (xs0 : Vec F S100x20 .f32) (xs1 : Vec F S100x20 .f32) (xs2 : Vec F S100x1 .f32) (xs3 : Vec F S20x1 .f32) :
    out0_C_2 c i arg2 harg2 arg3 harg3 arg4 harg4 arg5 harg5 arg6 harg6 arg7 harg7 arg8 harg8 hc0 hc1 x0 x1 xs0 xs1 xs2 xs3
      = k0_pay3 (k0_pay1 (k0_pay12 x0 xs2)) (k0_pay2 (k0_pay9 x1) xs3) (k0_pay11 x0 x1 xs1) (k0_pay10 x0 x1 xs0) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_cons_unit_zero (S := S1x100x20) hz3]
  simp only [View.readCov_unit_zero (S := S100x20) _ hz2, View.readCov_unit_zero (S := S100x1) _ hz2, View.readCov_unit_zero (S := S20x1) _ hz2]
  simp only [View.readAt_eq_ld, harg2.read_unread, harg3.read_unread, harg5.read_unread, harg6.read_unread, harg7.read_unread, harg8.read_unread,
    View.ld_unit_zero (S := S1x100x512) hz3, View.ld_unit_zero (S := S1x20x512) hz3, View.ld_unit_zero (S := S100x20) hz2,
    View.ld_unit_zero (S := S100x1) hz2, View.ld_unit_zero (S := S20x1) hz2]

end Cert.KernelIdeal.Body

end
-- ==== Proof.Accum.lean ====
/-
  The four running totals point by point.

  The grid walks 4 batch entries × 32 tiles in order, so point n works on tile n mod 32 of batch entry n div 32.
  After point n the scratch buffers hold: one step from zero when n is the first tile of its batch entry, one step
  from what point n − 1 left otherwise. At the last tile of a batch entry the output block is the closing formula of
  the totals just stored.
-/
import proofs.«133816_j59287728554541_1_alg».proof.Proof.BodyCases

noncomputable section

open Idealize.ShloMosaic Idealize.ShloMosaic.TcCoe Idealize.SL.Sem

namespace Cert.KernelIdeal.Body

open Cert.KernelIdeal Cert.KernelIdeal.Gen

variable {F : FTy → Type} [FloatOps F]
variable (m : (ℓ : Loc nD τ sig) → Buf (Elt F) ℓ)

theorem tuple4 {α β γ δ : Type} {a a' : α} {b b' : β} {c c' : γ} {d d' : δ}
    (ha : a = a') (hb : b = b') (hc : c = c') (hd : d = d') : (a, b, c, d) = (a', b', c', d') := by
  rw [ha, hb, hc, hd]

/-- The four totals after point `n`: restarted from zero at the first tile of a batch entry, continued otherwise. -/
def accAt (c : Dev nD) : (n : ℕ) → n < cfg0.N →
    Vec F S100x20 .f32 × Vec F S100x20 .f32 × Vec F S100x1 .f32 × Vec F S20x1 .f32
  | 0, h => step (iblk m c 0 ⟨0, h⟩) (iblk m c 1 ⟨0, h⟩) zeros
  | n + 1, h =>
    if (n + 1) % 32 = 0 then step (iblk m c 0 ⟨n + 1, h⟩) (iblk m c 1 ⟨n + 1, h⟩) zeros
    else step (iblk m c 0 ⟨n + 1, h⟩) (iblk m c 1 ⟨n + 1, h⟩) (accAt c n (Nat.lt_of_succ_lt h))

theorem accAt_first (c : Dev nD) (p : ℕ) (h : p < cfg0.N) (h0 : p % 32 = 0) :
    accAt m c p h = step (iblk m c 0 ⟨p, h⟩) (iblk m c 1 ⟨p, h⟩) zeros := by
  cases p with
  | zero => rfl
  | succ n => rw [accAt, if_pos h0]

theorem accAt_next (c : Dev nD) (n : ℕ) (h : n + 1 < cfg0.N) (h0 : ¬(n + 1) % 32 = 0) :
    accAt m c (n + 1) h
      = step (iblk m c 0 ⟨n + 1, h⟩) (iblk m c 1 ⟨n + 1, h⟩) (accAt m c n (Nat.lt_of_succ_lt h)) := by
  rw [accAt, if_neg h0]

/-- What the generated point-by-point contents hold in the four scratch buffers is these totals. -/
theorem outsAt_scratch (c : Dev nD) : ∀ (n : ℕ) (h : n < cfg0.N), (outsAt0 m c n h).2 = accAt m c n h
  | 0, h => by
    have h0 : (⟨0, h⟩ : Fin cfg0.N).val % 32 = 0 := Nat.zero_mod 32
    have h1 : ¬(⟨0, h⟩ : Fin cfg0.N).val % 32 = 31 := (by decide : ¬(0 : ℕ) % 32 = 31)
    exact (congrArg Prod.snd (outsAt0_A m c ⟨0, h⟩ h0 h1)).trans (tuple4
        (sA_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) ((hcond0_0 ⟨0, h⟩).mpr h0) (fun hh => h1 ((hcond0_1 ⟨0, h⟩).mp hh)) (iblk m c 0 ⟨0, h⟩) (iblk m c 1 ⟨0, h⟩))
        (sA_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) ((hcond0_0 ⟨0, h⟩).mpr h0) (fun hh => h1 ((hcond0_1 ⟨0, h⟩).mp hh)) (iblk m c 0 ⟨0, h⟩) (iblk m c 1 ⟨0, h⟩))
        (sA_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) ((hcond0_0 ⟨0, h⟩).mpr h0) (fun hh => h1 ((hcond0_1 ⟨0, h⟩).mp hh)) (iblk m c 0 ⟨0, h⟩) (iblk m c 1 ⟨0, h⟩))
        (sA_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _) ((hcond0_0 ⟨0, h⟩).mpr h0) (fun hh => h1 ((hcond0_1 ⟨0, h⟩).mp hh)) (iblk m c 0 ⟨0, h⟩) (iblk m c 1 ⟨0, h⟩)))
  | n + 1, h => by
    have hN : cfg0.N = 128 := N_0
    by_cases h0 : (n + 1) % 32 = 0
    · have h1 : ¬(n + 1) % 32 = 31 := by omega
      rw [accAt_first m c (n + 1) h h0]
      exact (congrArg Prod.snd (outsAt0_A m c ⟨n + 1, h⟩ h0 h1)).trans (tuple4
        (sA_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩))
        (sA_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩))
        (sA_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩))
        (sA_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩)))
    · rw [accAt_next m c n h h0, ← outsAt_scratch c n (Nat.lt_of_succ_lt h)]
      by_cases h1 : (n + 1) % 32 = 31
      · exact (congrArg Prod.snd (outsAt0_C m c ⟨n + 1, h⟩ h0 h1)).trans (tuple4
        (sC_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2)
        (sC_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2)
        (sC_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2)
        (sC_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2))
      · exact (congrArg Prod.snd (outsAt0_B m c ⟨n + 1, h⟩ h0 h1)).trans (tuple4
        (sB_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2)
        (sB_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2)
        (sB_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2)
        (sB_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2))

/-- At the last tile of a batch entry the output's staging buffer holds the closing formula of the totals. -/
theorem outsAt_out (c : Dev nD) : ∀ (n : ℕ) (h : n < cfg0.N), n % 32 = 31 →
    (outsAt0 m c n h).1
      = k0_pay3 (accAt m c n h).2.2.1 (accAt m c n h).2.2.2 (accAt m c n h).2.1 (accAt m c n h).1
  | 0, h, h1 => absurd h1 (by decide : ¬(0 : ℕ) % 32 = 31)
  | n + 1, h, h1 => by
    have h0 : ¬(n + 1) % 32 = 0 := by omega
    rw [accAt_next m c n h h0, ← outsAt_scratch m c n (Nat.lt_of_succ_lt h)]
    exact (congrArg Prod.fst (outsAt0_C m c ⟨n + 1, h⟩ h0 h1)).trans
      (oC_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2)

end Cert.KernelIdeal.Body

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.CostSpec.lean ====
/-
  The matching cost's mask-and-dice part, stated once for both programs.

  For one batch entry b, a prediction q and a target t, with `out` the predictions' masks and `tgt` the targets'
  masks, both flattened to 16384 pixels:
    L1   = Σₙ |out[b, q, n] − tgt[b, t, n]|,
    dot  = Σₙ out[b, q, n] · tgt[b, t, n],
    sa   = Σₙ out[b, q, n],   sb = Σₙ tgt[b, t, n],
    cost = 1 · L1 + 1 · (1 − (2 · dot + 1) / ((sa + sb) + 1)).
  The float literals 1 and 2 are kept as their bit patterns: the same words on both sides are never evaluated.
-/
import Idealize.ShloMosaic.PureOps.Ideal
import Idealize.ShloMosaic.Lib.ValueIdx

noncomputable section

open Idealize.ShloMosaic Idealize.ShloMosaic.ValueIdx

namespace Cert.CostSpec

/-- The cost at one pair from its four totals: 1 · L1 + 1 · (1 − (2 · dot + 1) / ((sa + sb) + 1)). -/
def closing (l1 dot sa sb : EReal) : EReal :=
  Ideal.ofBits .f32 0x3F800000#32 * l1
    + Ideal.ofBits .f32 0x3F800000#32
      * (Ideal.ofBits .f32 0x3F800000#32
          - Ideal.div (Ideal.ofBits .f32 0x40000000#32 * dot + Ideal.ofBits .f32 0x3F800000#32)
              ((sa + sb) + Ideal.ofBits .f32 0x3F800000#32))

/-- The mask-and-dice cost of prediction q against target t in batch entry b. -/
def maskDice (A : (⟨3, ![4, 100, 16384]⟩ : Shape).Idx → EReal) (B : (⟨3, ![4, 20, 16384]⟩ : Shape).Idx → EReal)
    (b : Fin 4) (q : Fin 100) (t : Fin 20) : EReal :=
  closing (∑ n : Fin 16384, FloatOps.absf (F := Ideal) (φ := .f32) (A (ix3 b q n) - B (ix3 b t n)))
    (∑ n : Fin 16384, A (ix3 b q n) * B (ix3 b t n))
    (∑ n : Fin 16384, A (ix3 b q n)) (∑ n : Fin 16384, B (ix3 b t n))

/-- The same as a [4, 100, 20] array. -/
def maskDiceArr (A : (⟨3, ![4, 100, 16384]⟩ : Shape).Idx → EReal) (B : (⟨3, ![4, 20, 16384]⟩ : Shape).Idx → EReal) :
    (⟨3, ![4, 100, 20]⟩ : Shape).Idx → EReal :=
  fun i => maskDice A B (i 0) (i 1) (i 2)

theorem maskDiceArr_apply (A : (⟨3, ![4, 100, 16384]⟩ : Shape).Idx → EReal) (B : (⟨3, ![4, 20, 16384]⟩ : Shape).Idx → EReal)
    (b : Fin 4) (q : Fin 100) (t : Fin 20) : maskDiceArr A B (ix3 b q t) = maskDice A B b q t := rfl

end Cert.CostSpec

end
-- ==== Proof.Payloads.lean ====
/-
  The body's arithmetic read entry by entry, over the extended reals.

  With `out` the [1, 100, 512] block and `tgt` the [1, 20, 512] block of one tile, one step adds to the running
  totals, per pair (q, t), the tile's sum of |out[q, j] − tgt[t, j]| and its sum of out[q, j] · tgt[t, j], per row
  q the tile's sum of out[q, j], and per row t the tile's sum of tgt[t, j]. The closing formula at (q, t) is
  1 · L1 + 1 · (1 − (2 · dot + 1) / ((rowsum_out[q] + rowsum_tgt[t]) + 1)). A change of float format is the
  identity here, so the rounding to bf16 before the matrix product disappears.
-/
import proofs.«133816_j59287728554541_1_alg».proof.Proof.Gen.KernelIdeal.Skeleton
import proofs.«133816_j59287728554541_1_alg».proof.Proof.LibKeepdims
import proofs.«133816_j59287728554541_1_alg».proof.Proof.CostSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Pay

open Cert.KernelIdeal Cert.KernelIdeal.Gen Cert.CostSpec

/-! ## The layout steps, each read at coordinates -/

/-- The first block with its unit axis dropped: entry (q, j) is entry (0, q, j). -/
theorem pay8_apply (x0 : FVec Ideal S1x100x512 .f32) (q : Fin 100) (j : Fin 512) :
    k0_pay8 (F := Ideal) x0 (ix2 q j) = x0 (ix3 (0 : Fin 1) q j) := by
  unfold k0_pay8
  exact shapeCast_1ab_ab_apply x0 _ q j

/-- The second block with its unit axis dropped: entry (t, j) is entry (0, t, j). -/
theorem pay9_apply (x1 : FVec Ideal S1x20x512 .f32) (t : Fin 20) (j : Fin 512) :
    k0_pay9 (F := Ideal) x1 (ix2 t j) = x1 (ix3 (0 : Fin 1) t j) := by
  unfold k0_pay9
  exact shapeCast_1ab_ab_apply x1 _ t j

/-- The first operand of the pairwise difference: rows of `out` repeated along the t axis. -/
theorem left_apply (v : FVec Ideal S100x512 .f32) (q : Fin 100) (t : Fin 20) (j : Fin 512) :
    broadcastTo S100x20x512 (shapeCast S100x1x512 v shapeCasts_S100x512_S100x1x512) broadcasts_S100x1x512_S100x20x512 (ix3 q t j)
      = v (ix2 q j) := by
  refine (broadcastTo_apply _ broadcasts_S100x1x512_S100x20x512 (ix3 q t j) (ix3 q (0 : Fin 1) j) fun a => ?_).trans ?_
  · match a with
    | ⟨0, _⟩ => show q.val = if (100 : Nat) = 1 then 0 else q.val; rw [if_neg (by decide)]
    | ⟨1, _⟩ => show (0 : Nat) = if (1 : Nat) = 1 then 0 else t.val; rw [if_pos rfl]
    | ⟨2, _⟩ => show j.val = if (512 : Nat) = 1 then 0 else j.val; rw [if_neg (by decide)]
  · exact shapeCast_apply v shapeCasts_S100x512_S100x1x512 _ _ (by
      rw [Shape.rowMajor_val_two, Shape.rowMajor_val_three]
      show q.val * 512 + j.val = (q.val * 1 + 0) * 512 + j.val
      omega)

/-- The second operand of the pairwise difference: rows of `tgt` repeated along the q axis. -/
theorem right_apply (v : FVec Ideal S20x512 .f32) (q : Fin 100) (t : Fin 20) (j : Fin 512) :
    broadcastTo S100x20x512 (shapeCast S1x20x512 v shapeCasts_S20x512_S1x20x512) broadcasts_S1x20x512_S100x20x512 (ix3 q t j)
      = v (ix2 t j) := by
  refine (broadcastTo_apply _ broadcasts_S1x20x512_S100x20x512 (ix3 q t j) (ix3 (0 : Fin 1) t j) fun a => ?_).trans ?_
  · match a with
    | ⟨0, _⟩ => show (0 : Nat) = if (1 : Nat) = 1 then 0 else q.val; rw [if_pos rfl]
    | ⟨1, _⟩ => show t.val = if (20 : Nat) = 1 then 0 else t.val; rw [if_neg (by decide)]
    | ⟨2, _⟩ => show j.val = if (512 : Nat) = 1 then 0 else j.val; rw [if_neg (by decide)]
  · exact shapeCast_ab_1ab_apply v shapeCasts_S20x512_S1x20x512 (0 : Fin 1) t j

/-! ## The three reductions and the matrix product, as sums over the 512 lanes of a tile -/

/-- A sum over the last axis of a [100, 20, 512] array. -/
theorem lane_sum_pair (v : FVec Ideal S100x20x512 .f32) (q : Fin 100) (t : Fin 20) :
    multiReduction .add [2] S100x20 v 0x00000000#32 reduces_S100x20x512_S100x20 (.inl rfl) rfl (ix2 q t)
      = ∑ j : Fin 512, v (ix3 q t j) := by
  refine (Ideal.multiReduction_add_single v 0x00000000#32 reduces_S100x20x512_S100x20 (.inl rfl) rfl (ix2 q t)).trans ?_
  exact Finset.sum_congr rfl fun j _ => congrArg v (funext fun a => Fin.ext (by
    match a with | ⟨0, _⟩ => rfl | ⟨1, _⟩ => rfl | ⟨2, _⟩ => rfl))

/-- A sum over the columns of a [100, 512] array. -/
theorem lane_sum_out (v : FVec Ideal S100x512 .f32) (q : Fin 100) :
    multiReduction .add [1] S100 v 0x00000000#32 reduces_S100x512_S100 (.inl rfl) rfl (ix1 q)
      = ∑ j : Fin 512, v (ix2 q j) := by
  refine (Ideal.multiReduction_add_single v 0x00000000#32 reduces_S100x512_S100 (.inl rfl) rfl (ix1 q)).trans ?_
  exact Finset.sum_congr rfl fun j _ => congrArg v (funext fun a => Fin.ext (by
    match a with | ⟨0, _⟩ => rfl | ⟨1, _⟩ => rfl))

/-- A sum over the columns of a [20, 512] array. -/
theorem lane_sum_tgt (v : FVec Ideal S20x512 .f32) (t : Fin 20) :
    multiReduction .add [1] S20 v 0x00000000#32 reduces_S20x512_S20 (.inl rfl) rfl (ix1 t)
      = ∑ j : Fin 512, v (ix2 t j) := by
  refine (Ideal.multiReduction_add_single v 0x00000000#32 reduces_S20x512_S20 (.inl rfl) rfl (ix1 t)).trans ?_
  exact Finset.sum_congr rfl fun j _ => congrArg v (funext fun a => Fin.ext (by
    match a with | ⟨0, _⟩ => rfl | ⟨1, _⟩ => rfl))

/-- The product's left operand index at output (q, t) and lane k: row q … -/
theorem dot_lhs0 (i : S100x20.Idx) (k : dot_S100x512_S512x20_S100x20_1_0_0_1_n_n.contr.Idx) : (dot_S100x512_S512x20_S100x20_1_0_0_1_n_n.lhsIdx i k 0).val = (i 0).val := by
  unfold DotDims.lhsIdx
  rw [dif_neg (show ¬(0 : Fin S100x512.rank) ∈ dot_S100x512_S512x20_S100x20_1_0_0_1_n_n.lhsBatch by decide),
    dif_pos (show (0 : Fin S100x512.rank) ∈ dot_S100x512_S512x20_S100x20_1_0_0_1_n_n.lhsNonContracting by decide)]
  rfl
/-- … column k; -/
theorem dot_lhs1 (i : S100x20.Idx) (k : dot_S100x512_S512x20_S100x20_1_0_0_1_n_n.contr.Idx) : (dot_S100x512_S512x20_S100x20_1_0_0_1_n_n.lhsIdx i k 1).val = (k ⟨0, by decide⟩).val :=
  dot_S100x512_S512x20_S100x20_1_0_0_1_n_n.lhsIdx_val_of_single rfl i k
/-- the right operand's: row k … -/
theorem dot_rhs0 (i : S100x20.Idx) (k : dot_S100x512_S512x20_S100x20_1_0_0_1_n_n.contr.Idx) : (dot_S100x512_S512x20_S100x20_1_0_0_1_n_n.rhsIdx i k 0).val = (k ⟨0, by decide⟩).val :=
  dot_S100x512_S512x20_S100x20_1_0_0_1_n_n.rhsIdx_val_of_single rfl i k
/-- … column t. -/
theorem dot_rhs1 (i : S100x20.Idx) (k : dot_S100x512_S512x20_S100x20_1_0_0_1_n_n.contr.Idx) : (dot_S100x512_S512x20_S100x20_1_0_0_1_n_n.rhsIdx i k 1).val = (i 1).val := by
  unfold DotDims.rhsIdx
  rw [dif_neg (show ¬(1 : Fin S512x20.rank) ∈ dot_S100x512_S512x20_S100x20_1_0_0_1_n_n.rhsBatch by decide),
    dif_pos (show (1 : Fin S512x20.rank) ∈ dot_S100x512_S512x20_S100x20_1_0_0_1_n_n.rhsNonContracting by decide)]
  rfl

/-- The [100, 512] × [512, 20] product into a zero accumulator: entry (q, t) is the sum over the 512 lanes. -/
theorem tile_dot (l : FVec Ideal S100x512 .bf16) (r : FVec Ideal S512x20 .bf16) (q : Fin 100) (t : Fin 20) :
    matmul dot_S100x512_S512x20_S100x20_1_0_0_1_n_n none l r (constant S100x20 .f32 0x00000000#32) (ix2 q t)
      = ∑ k : Fin 512, l (ix2 q k) * r (ix2 k t) := by
  refine (Ideal.matmul_constant_zero_apply dot_S100x512_S512x20_S100x20_1_0_0_1_n_n none l r (ix2 q t)).trans ?_
  rw [← Equiv.sum_comp (contrEquiv1 dot_S100x512_S512x20_S100x20_1_0_0_1_n_n 512 rfl rfl).symm]
  refine Finset.sum_congr rfl fun k _ => ?_
  have hk := contrEquiv1_symm_val dot_S100x512_S512x20_S100x20_1_0_0_1_n_n 512 rfl rfl k
  have el : dot_S100x512_S512x20_S100x20_1_0_0_1_n_n.lhsIdx (ix2 q t) ((contrEquiv1 dot_S100x512_S512x20_S100x20_1_0_0_1_n_n 512 rfl rfl).symm k) = ix2 q k :=
    funext fun a => Fin.ext (by
      match a with
      | ⟨0, _⟩ => exact dot_lhs0 _ _
      | ⟨1, _⟩ => exact (dot_lhs1 _ _).trans hk)
  have er : dot_S100x512_S512x20_S100x20_1_0_0_1_n_n.rhsIdx (ix2 q t) ((contrEquiv1 dot_S100x512_S512x20_S100x20_1_0_0_1_n_n 512 rfl rfl).symm k) = ix2 k t :=
    funext fun a => Fin.ext (by
      match a with
      | ⟨0, _⟩ => exact (dot_rhs0 _ _).trans hk
      | ⟨1, _⟩ => exact dot_rhs1 _ _)
  rw [el, er]

/-! ## One step of each running total -/

/-- The total of absolute differences: one step adds the tile's sum of |out[q, j] − tgt[t, j]|. -/
theorem pay10_apply (x0 : FVec Ideal S1x100x512 .f32) (x1 : FVec Ideal S1x20x512 .f32) (s : FVec Ideal S100x20 .f32)
    (q : Fin 100) (t : Fin 20) :
    k0_pay10 (F := Ideal) x0 x1 s (ix2 q t)
      = s (ix2 q t) + ∑ j : Fin 512, FloatOps.absf (x0 (ix3 (0 : Fin 1) q j) - x1 (ix3 (0 : Fin 1) t j)) := by
  unfold k0_pay10
  rw [shapeCast_self]
  refine congrArg (s (ix2 q t) + ·) ?_
  refine (lane_sum_pair _ q t).trans (Finset.sum_congr rfl fun j _ => ?_)
  show FloatOps.absf (broadcastTo S100x20x512 _ _ (ix3 q t j) - broadcastTo S100x20x512 _ _ (ix3 q t j)) = _
  rw [left_apply, right_apply, pay8_apply, pay9_apply]

/-- The total of products: one step adds the tile's sum of out[q, j] · tgt[t, j]. -/
theorem pay11_apply (x0 : FVec Ideal S1x100x512 .f32) (x1 : FVec Ideal S1x20x512 .f32) (s : FVec Ideal S100x20 .f32)
    (q : Fin 100) (t : Fin 20) :
    k0_pay11 (F := Ideal) x0 x1 s (ix2 q t)
      = s (ix2 q t) + ∑ j : Fin 512, x0 (ix3 (0 : Fin 1) q j) * x1 (ix3 (0 : Fin 1) t j) := by
  unfold k0_pay11
  rw [shapeCast_self]
  refine congrArg (s (ix2 q t) + ·) ?_
  refine (tile_dot _ _ q t).trans (Finset.sum_congr rfl fun j _ => ?_)
  rw [transpose_ix2_apply]
  show k0_pay8 (F := Ideal) x0 (ix2 q j) * k0_pay9 (F := Ideal) x1 (ix2 t j) = _
  rw [pay8_apply, pay9_apply]

/-- The row totals of `out`: one step adds the tile's sum of out[q, j]. -/
theorem pay12_apply (x0 : FVec Ideal S1x100x512 .f32) (s : FVec Ideal S100x1 .f32) (q : Fin 100) (u : Fin 1) :
    k0_pay1 (F := Ideal) (k0_pay12 (F := Ideal) x0 s) (ix2 q u) = s (ix2 q u) + ∑ j : Fin 512, x0 (ix3 (0 : Fin 1) q j) := by
  unfold k0_pay1 k0_pay12
  rw [shapeCast_self]
  refine congrArg (s (ix2 q u) + ·) ?_
  refine (shapeCast_a_a1_apply _ shapeCasts_S100_S100x1 q u).trans ?_
  refine (lane_sum_out _ q).trans (Finset.sum_congr rfl fun j _ => ?_)
  exact pay8_apply x0 q j

/-- The row totals of `tgt`: one step adds the tile's sum of tgt[t, j]. -/
theorem pay2_apply (x1 : FVec Ideal S1x20x512 .f32) (s : FVec Ideal S20x1 .f32) (t : Fin 20) (u : Fin 1) :
    k0_pay2 (F := Ideal) (k0_pay9 (F := Ideal) x1) s (ix2 t u) = s (ix2 t u) + ∑ j : Fin 512, x1 (ix3 (0 : Fin 1) t j) := by
  unfold k0_pay2
  rw [shapeCast_self]
  refine congrArg (s (ix2 t u) + ·) ?_
  refine (shapeCast_a_a1_apply _ shapeCasts_S20_S20x1 t u).trans ?_
  refine (lane_sum_tgt _ t).trans (Finset.sum_congr rfl fun j _ => ?_)
  exact pay9_apply x1 t j

/-! ## The zeros the first tile stores -/

theorem pay4_apply (i : S100x20.Idx) : k0_pay4 (F := Ideal) i = 0 := by
  unfold k0_pay4; rw [shapeCast_self]; exact Ideal.ofBits_zero_f32
theorem pay5_apply (i : S100x20.Idx) : k0_pay5 (F := Ideal) i = 0 := by
  unfold k0_pay5; rw [shapeCast_self]; exact Ideal.ofBits_zero_f32
theorem pay6_apply (i : S100x1.Idx) : k0_pay6 (F := Ideal) i = 0 := by
  unfold k0_pay6; rw [shapeCast_self]; exact Ideal.ofBits_zero_f32
theorem pay7_apply (i : S20x1.Idx) : k0_pay7 (F := Ideal) i = 0 := by
  unfold k0_pay7; rw [shapeCast_self]; exact Ideal.ofBits_zero_f32

/-! ## The closing formula -/

/-- The output block at (0, q, t) is the closing formula of the four totals at (q, t), (q, t), (q, 0), (t, 0). -/
theorem pay3_apply (sa : FVec Ideal S100x1 .f32) (sb : FVec Ideal S20x1 .f32) (dot l1 : FVec Ideal S100x20 .f32)
    (u : Fin 1) (q : Fin 100) (t : Fin 20) :
    k0_pay3 (F := Ideal) sa sb dot l1 (ix3 u q t)
      = closing (l1 (ix2 q t)) (dot (ix2 q t)) (sa (ix2 q (0 : Fin 1))) (sb (ix2 t (0 : Fin 1))) := by
  unfold k0_pay3
  refine (shapeCast_ab_1ab_apply _ shapeCasts_S100x20_S1x100x20 u q t).trans ?_
  unfold closing
  show Ideal.ofBits .f32 0x3F800000#32 * l1 (ix2 q t)
      + Ideal.ofBits .f32 0x3F800000#32
        * (Ideal.ofBits .f32 0x3F800000#32
            - Ideal.div (Ideal.ofBits .f32 0x40000000#32 * dot (ix2 q t) + Ideal.ofBits .f32 0x3F800000#32)
                ((broadcastTo S100x20 sa broadcasts_S100x1_S100x20 (ix2 q t)
                    + broadcastTo S100x20 (transpose S1x20 [1, 0] sb transposes_S20x1_p1_0_S1x20) broadcasts_S1x20_S100x20 (ix2 q t))
                  + Ideal.ofBits .f32 0x3F800000#32)) = _
  rw [broadcastTo_a1_ab_apply, broadcastTo_1b_ab_apply, transpose_ix2_apply]

end Cert.KernelIdeal.Pay

end
-- ==== Proof.Sums.lean ====
/-
  Regrouping a long sum into consecutive tiles, in any commutative additive monoid: a sum over
  `a * b` consecutive naturals is the sum, over `a` tiles, of each tile's `b` terms; and a running
  total that starts at zero and adds one tile's total per step is the sum of the tiles met so far.
-/
import Mathlib

namespace Cert.TileSums

open Finset

variable {M : Type*} [AddCommMonoid M]

/-- The first `a` tiles of width `b` are the first `a * b` terms. -/
theorem sum_range_tiles (f : ℕ → M) (b : ℕ) :
    ∀ a : ℕ, ∑ k ∈ range a, ∑ j ∈ range b, f (b * k + j) = ∑ n ∈ range (a * b), f n
  | 0 => by simp
  | a + 1 => by
    rw [sum_range_succ, sum_range_tiles f b a, Nat.succ_mul, sum_range_add, Nat.mul_comm a b]

/-- The same with the tile's inner index and the long index in `Fin`: 32 tiles of 512 are 16384 terms. -/
theorem sum_tiles_32_512 (f : ℕ → M) :
    ∑ k ∈ range 32, ∑ j : Fin 512, f (512 * k + j.val) = ∑ n : Fin 16384, f n.val := by
  rw [Fin.sum_univ_eq_sum_range (fun n => f n) 16384, ← sum_range_tiles f 512 32]
  exact sum_congr rfl fun k _ => Fin.sum_univ_eq_sum_range (fun j => f (512 * k + j)) 512

end Cert.TileSums
-- ==== Proof.Totals.lean ====
/-
  The four totals after each point, as sums over the pixels seen so far.

  Point p works on batch entry p div 32 and on pixels 512 · (p mod 32) … 512 · (p mod 32) + 511 of the flattened
  128 × 128 image. So after point p each total is the sum, over the tiles k ≤ p mod 32 of that batch entry, of the
  tile's 512 terms; after the last tile (p mod 32 = 31) the 32 tiles are all 16384 pixels, in order.
-/
import proofs.«133816_j59287728554541_1_alg».proof.Proof.Accum
import proofs.«133816_j59287728554541_1_alg».proof.Proof.Payloads
import proofs.«133816_j59287728554541_1_alg».proof.Proof.Sums

noncomputable section

open Idealize.ShloMosaic Idealize.ShloMosaic.TcCoe Idealize.SL.Sem Idealize.ShloMosaic.ValueIdx

namespace Cert.KernelIdeal.Totals

open Cert.KernelIdeal Cert.KernelIdeal.Gen Cert.KernelIdeal.Body Cert.KernelIdeal.Pay

variable (m : (ℓ : Loc nD τ sig) → Buf (Elt Ideal) ℓ)

/-- Entry (b, r, n) of a [4, R, 16384] array, with the batch entry and the pixel given as naturals (zero outside
    the array: never read there). -/
def at3 {R : ℕ} (A : (⟨3, ![4, R, 16384]⟩ : Shape).Idx → EReal) (b : ℕ) (r : Fin R) (n : ℕ) : EReal :=
  if h : b < 4 ∧ n < 16384 then A (ix3 ⟨b, h.1⟩ r ⟨n, h.2⟩) else 0

theorem at3_fin {R : ℕ} (A : (⟨3, ![4, R, 16384]⟩ : Shape).Idx → EReal) (b : Fin 4) (r : Fin R) (n : Fin 16384) :
    at3 A b.val r n.val = A (ix3 b r n) := by
  unfold at3
  rw [dif_pos ⟨b.isLt, n.isLt⟩]

/-- The predictions' masks, flattened, as the region finds them. -/
abbrev arrA (c : Dev nD) : S4x100x16384.Idx → EReal := V m c main_v0
/-- The targets' masks, flattened, as the region finds them. -/
abbrev arrB (c : Dev nD) : S4x20x16384.Idx → EReal := V m c main_v1

/-- Where each window's block sits at point `t`: batch entry t div 32; the inputs' pixel tile t mod 32. -/
theorem idx_at : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = t.val % 32
    ∧ win0_2.index t (0 : Fin 3) = t.val / 32 ∧ win0_2.index t (1 : Fin 3) = 0 ∧ win0_2.index t (2 : Fin 3) = 0 :=
  (by decide +kernel : ∀ t : Fin grid0.N, _)

/-- The first input's block at point p, entry (0, q, j): row q, pixel 512 · (p mod 32) + j of batch entry p div 32. -/
theorem blk0_apply (c : Dev nD) (p : ℕ) (h : p < cfg0.N) (q : Fin 100) (j : Fin 512) :
    (iblk m c 0 ⟨p, h⟩ : FVec Ideal S1x100x512 .f32) (ix3 (0 : Fin 1) q j)
      = at3 (arrA m c) (p / 32) q (512 * (p % 32) + j.val) := by
  have hN : p < 128 := lt_of_lt_of_eq h (show cfg0.N = 128 from N_0)
  obtain ⟨e0, e1, e2, -⟩ := idx_at ⟨p, h⟩
  have hj : j.val < 512 := j.isLt
  unfold at3
  rw [dif_pos ⟨by omega, by omega⟩]
  unfold iblk
  rw [View.read_apply]
  show V m c main_v0 (((cfg0.win 0).blk ⟨p, h⟩).view.emb (ix3 (0 : Fin 1) q j)) = V m c main_v0 _
  refine congrArg (V m c main_v0) (funext fun a => Fin.ext ?_)
  match a with
  | ⟨0, _⟩ => show win0_0.index ⟨p, h⟩ (0 : Fin 3) * 1 + 1 * (0 : ℕ) = p / 32; rw [e0]; show p / 32 * 1 + 1 * 0 = p / 32; omega
  | ⟨1, _⟩ => show win0_0.index ⟨p, h⟩ (1 : Fin 3) * 100 + 1 * q.val = q.val; rw [e1]; omega
  | ⟨2, _⟩ => show win0_0.index ⟨p, h⟩ (2 : Fin 3) * 512 + 1 * j.val = 512 * (p % 32) + j.val; rw [e2]; show p % 32 * 512 + 1 * j.val = _; omega

/-- The second input's block at point p, entry (0, t, j): row t, the same pixel. -/
theorem blk1_apply (c : Dev nD) (p : ℕ) (h : p < cfg0.N) (t : Fin 20) (j : Fin 512) :
    (iblk m c 1 ⟨p, h⟩ : FVec Ideal S1x20x512 .f32) (ix3 (0 : Fin 1) t j)
      = at3 (arrB m c) (p / 32) t (512 * (p % 32) + j.val) := by
  have hN : p < 128 := lt_of_lt_of_eq h (show cfg0.N = 128 from N_0)
  obtain ⟨-, -, -, e0, e1, e2, -⟩ := idx_at ⟨p, h⟩
  have hj : j.val < 512 := j.isLt
  unfold at3
  rw [dif_pos ⟨by omega, by omega⟩]
  unfold iblk
  rw [View.read_apply]
  show V m c main_v1 (((cfg0.win 1).blk ⟨p, h⟩).view.emb (ix3 (0 : Fin 1) t j)) = V m c main_v1 _
  refine congrArg (V m c main_v1) (funext fun a => Fin.ext ?_)
  match a with
  | ⟨0, _⟩ => show win0_1.index ⟨p, h⟩ (0 : Fin 3) * 1 + 1 * (0 : ℕ) = p / 32; rw [e0]; show p / 32 * 1 + 1 * 0 = p / 32; omega
  | ⟨1, _⟩ => show win0_1.index ⟨p, h⟩ (1 : Fin 3) * 20 + 1 * t.val = t.val; rw [e1]; omega
  | ⟨2, _⟩ => show win0_1.index ⟨p, h⟩ (2 : Fin 3) * 512 + 1 * j.val = 512 * (p % 32) + j.val; rw [e2]; show p % 32 * 512 + 1 * j.val = _; omega

/-! ## One pixel's term of each total -/

def termL1 (A : S4x100x16384.Idx → EReal) (B : S4x20x16384.Idx → EReal) (b : ℕ) (q : Fin 100) (t : Fin 20) (n : ℕ) : EReal :=
  FloatOps.absf (F := Ideal) (φ := .f32) (at3 A b q n - at3 B b t n)
def termDot (A : S4x100x16384.Idx → EReal) (B : S4x20x16384.Idx → EReal) (b : ℕ) (q : Fin 100) (t : Fin 20) (n : ℕ) : EReal :=
  at3 A b q n * at3 B b t n

/-- One step at point p adds, to each total, the 512 terms of tile p mod 32 of batch entry p div 32. -/
theorem step_at (c : Dev nD) (p : ℕ) (h : p < cfg0.N)
    (s : FVec Ideal S100x20 .f32 × FVec Ideal S100x20 .f32 × FVec Ideal S100x1 .f32 × FVec Ideal S20x1 .f32)
    (q : Fin 100) (t : Fin 20) :
    (step (F := Ideal) (iblk m c 0 ⟨p, h⟩) (iblk m c 1 ⟨p, h⟩) s).1 (ix2 q t)
        = s.1 (ix2 q t) + ∑ j : Fin 512, termL1 (arrA m c) (arrB m c) (p / 32) q t (512 * (p % 32) + j.val)
    ∧ (step (F := Ideal) (iblk m c 0 ⟨p, h⟩) (iblk m c 1 ⟨p, h⟩) s).2.1 (ix2 q t)
        = s.2.1 (ix2 q t) + ∑ j : Fin 512, termDot (arrA m c) (arrB m c) (p / 32) q t (512 * (p % 32) + j.val)
    ∧ (step (F := Ideal) (iblk m c 0 ⟨p, h⟩) (iblk m c 1 ⟨p, h⟩) s).2.2.1 (ix2 q (0 : Fin 1))
        = s.2.2.1 (ix2 q (0 : Fin 1)) + ∑ j : Fin 512, at3 (arrA m c) (p / 32) q (512 * (p % 32) + j.val)
    ∧ (step (F := Ideal) (iblk m c 0 ⟨p, h⟩) (iblk m c 1 ⟨p, h⟩) s).2.2.2 (ix2 t (0 : Fin 1))
        = s.2.2.2 (ix2 t (0 : Fin 1)) + ∑ j : Fin 512, at3 (arrB m c) (p / 32) t (512 * (p % 32) + j.val) := by
  refine ⟨?_, ?_, ?_, ?_⟩
  · refine (pay10_apply (iblk m c 0 ⟨p, h⟩) (iblk m c 1 ⟨p, h⟩) s.1 q t).trans ?_
    refine congrArg (s.1 (ix2 q t) + ·) (Finset.sum_congr rfl fun j _ => ?_)
    rw [blk0_apply m c p h q j, blk1_apply m c p h t j]; rfl
  · refine (pay11_apply (iblk m c 0 ⟨p, h⟩) (iblk m c 1 ⟨p, h⟩) s.2.1 q t).trans ?_
    refine congrArg (s.2.1 (ix2 q t) + ·) (Finset.sum_congr rfl fun j _ => ?_)
    rw [blk0_apply m c p h q j, blk1_apply m c p h t j]; rfl
  · refine (pay12_apply (iblk m c 0 ⟨p, h⟩) s.2.2.1 q (0 : Fin 1)).trans ?_
    refine congrArg (s.2.2.1 (ix2 q (0 : Fin 1)) + ·) (Finset.sum_congr rfl fun j _ => ?_)
    exact blk0_apply m c p h q j
  · refine (pay2_apply (iblk m c 1 ⟨p, h⟩) s.2.2.2 t (0 : Fin 1)).trans ?_
    refine congrArg (s.2.2.2 (ix2 t (0 : Fin 1)) + ·) (Finset.sum_congr rfl fun j _ => ?_)
    exact blk1_apply m c p h t j

/-- After point p each total is the sum over the tiles 0 … p mod 32 of batch entry p div 32. -/
theorem acc_val (c : Dev nD) : ∀ (p : ℕ) (h : p < cfg0.N) (q : Fin 100) (t : Fin 20),
    (accAt (F := Ideal) m c p h).1 (ix2 q t)
        = ∑ k ∈ Finset.range (p % 32 + 1), ∑ j : Fin 512, termL1 (arrA m c) (arrB m c) (p / 32) q t (512 * k + j.val)
    ∧ (accAt (F := Ideal) m c p h).2.1 (ix2 q t)
        = ∑ k ∈ Finset.range (p % 32 + 1), ∑ j : Fin 512, termDot (arrA m c) (arrB m c) (p / 32) q t (512 * k + j.val)
    ∧ (accAt (F := Ideal) m c p h).2.2.1 (ix2 q (0 : Fin 1))
        = ∑ k ∈ Finset.range (p % 32 + 1), ∑ j : Fin 512, at3 (arrA m c) (p / 32) q (512 * k + j.val)
    ∧ (accAt (F := Ideal) m c p h).2.2.2 (ix2 t (0 : Fin 1))
        = ∑ k ∈ Finset.range (p % 32 + 1), ∑ j : Fin 512, at3 (arrB m c) (p / 32) t (512 * k + j.val) := by
  intro p
  induction p with
  | zero =>
    intro h q t
    rw [accAt_first m c 0 h (Nat.zero_mod 32)]
    obtain ⟨e0, e1, e2, e3⟩ := step_at m c 0 h (zeros (F := Ideal)) q t
    rw [e0, e1, e2, e3]
    simp only [Nat.zero_mod, Nat.zero_add, Finset.sum_range_one, Nat.zero_div, Nat.mul_zero]
    exact ⟨by rw [show (zeros (F := Ideal)).1 (ix2 q t) = 0 from pay4_apply (ix2 q t), zero_add],
      by rw [show (zeros (F := Ideal)).2.1 (ix2 q t) = 0 from pay5_apply (ix2 q t), zero_add],
      by rw [show (zeros (F := Ideal)).2.2.1 (ix2 q (0 : Fin 1)) = 0 from pay6_apply (ix2 q (0 : Fin 1)), zero_add],
      by rw [show (zeros (F := Ideal)).2.2.2 (ix2 t (0 : Fin 1)) = 0 from pay7_apply (ix2 t (0 : Fin 1)), zero_add]⟩
  | succ n ih =>
    intro h q t
    by_cases h0 : (n + 1) % 32 = 0
    · rw [accAt_first m c (n + 1) h h0]
      obtain ⟨e0, e1, e2, e3⟩ := step_at m c (n + 1) h (zeros (F := Ideal)) q t
      rw [e0, e1, e2, e3, h0]
      simp only [Nat.zero_add, Finset.sum_range_one, Nat.mul_zero]
      exact ⟨by rw [show (zeros (F := Ideal)).1 (ix2 q t) = 0 from pay4_apply (ix2 q t), zero_add],
        by rw [show (zeros (F := Ideal)).2.1 (ix2 q t) = 0 from pay5_apply (ix2 q t), zero_add],
        by rw [show (zeros (F := Ideal)).2.2.1 (ix2 q (0 : Fin 1)) = 0 from pay6_apply (ix2 q (0 : Fin 1)), zero_add],
        by rw [show (zeros (F := Ideal)).2.2.2 (ix2 t (0 : Fin 1)) = 0 from pay7_apply (ix2 t (0 : Fin 1)), zero_add]⟩
    · rw [accAt_next m c n h h0]
      obtain ⟨e0, e1, e2, e3⟩ := step_at m c (n + 1) h (accAt m c n (Nat.lt_of_succ_lt h)) q t
      obtain ⟨i0, i1, i2, i3⟩ := ih (Nat.lt_of_succ_lt h) q t
      have hm : (n + 1) % 32 = n % 32 + 1 := by omega
      have hd : (n + 1) / 32 = n / 32 := by omega
      rw [e0, e1, e2, e3, i0, i1, i2, i3, hm, hd]
      exact ⟨(Finset.sum_range_succ _ _).symm, (Finset.sum_range_succ _ _).symm,
        (Finset.sum_range_succ _ _).symm, (Finset.sum_range_succ _ _).symm⟩

/-- After the last tile of batch entry b the totals are the sums over all 16384 pixels. -/
theorem acc_last (c : Dev nD) (p : ℕ) (h : p < cfg0.N) (h1 : p % 32 = 31) (b : Fin 4) (hb : p / 32 = b.val) (q : Fin 100) (t : Fin 20) :
    (accAt (F := Ideal) m c p h).1 (ix2 q t)
        = ∑ n : Fin 16384, FloatOps.absf (F := Ideal) (φ := .f32) (arrA m c (ix3 b q n) - arrB m c (ix3 b t n))
    ∧ (accAt (F := Ideal) m c p h).2.1 (ix2 q t)
        = ∑ n : Fin 16384, arrA m c (ix3 b q n) * arrB m c (ix3 b t n)
    ∧ (accAt (F := Ideal) m c p h).2.2.1 (ix2 q (0 : Fin 1)) = ∑ n : Fin 16384, arrA m c (ix3 b q n)
    ∧ (accAt (F := Ideal) m c p h).2.2.2 (ix2 t (0 : Fin 1)) = ∑ n : Fin 16384, arrB m c (ix3 b t n) := by
  obtain ⟨e0, e1, e2, e3⟩ := acc_val m c p h q t
  rw [e0, e1, e2, e3, h1, hb]
  refine ⟨?_, ?_, ?_, ?_⟩
  · refine (Cert.TileSums.sum_tiles_32_512 (termL1 (arrA m c) (arrB m c) b.val q t)).trans (Finset.sum_congr rfl fun n _ => ?_)
    unfold termL1; rw [at3_fin, at3_fin]
  · refine (Cert.TileSums.sum_tiles_32_512 (termDot (arrA m c) (arrB m c) b.val q t)).trans (Finset.sum_congr rfl fun n _ => ?_)
    unfold termDot; rw [at3_fin, at3_fin]
  · exact (Cert.TileSums.sum_tiles_32_512 (at3 (arrA m c) b.val q)).trans (Finset.sum_congr rfl fun n _ => at3_fin (arrA m c) b q n)
  · exact (Cert.TileSums.sum_tiles_32_512 (at3 (arrB m c) b.val t)).trans (Finset.sum_congr rfl fun n _ => at3_fin (arrB m c) b t n)

end Cert.KernelIdeal.Totals

end
-- ==== Proof.KernelValue.lean ====
/-
  The kernel's run, read as values.

  The output window is written back only after the last tile of each batch entry, and block b of the [4, 100, 20]
  result is then the closing formula of the four totals over all 16384 pixels: the mask-and-dice cost of the
  specification. The four blocks tile the result. After the region the program adds the class term, computed by the
  same host operations as in the reference from the class scores and the labels.
-/
import proofs.«133816_j59287728554541_1_alg».proof.Proof.Totals
import proofs.«133816_j59287728554541_1_alg».proof.Proof.CostSpec
import proofs.«133816_j59287728554541_1_alg».proof.Proof.Gen.ReferenceIdeal.Read
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.KernelIdeal.Body Cert.KernelIdeal.Pay Cert.KernelIdeal.Totals Cert.CostSpec
open Idealize.ShloMosaic.StableHlo

variable (m : (ℓ : Loc nD τ sig) → Buf (Elt Ideal) ℓ) (ρ : Dev nD → PrngReg)

/-- The class term both programs add: one times minus the softmax probability of each target's label. -/
def classTerm (x0 : (⟨S4x100x80, .f32⟩ : BufTy).Contents (Elt Ideal)) (x3 : (⟨S4x20, .i32⟩ : BufTy).Contents (Elt Ideal)) :
    (⟨S4x100x20, .f32⟩ : BufTy).Contents (Elt Ideal) :=
  Cert.ReferenceIdeal.Read.val_main_v44 (F := Ideal) x0 x3

/-- What the write-back after the last tile of a batch entry writes: that entry's block of the mask-and-dice cost. -/
theorem flushed_eq (c : Dev nD) (t : Fin cfg0.N) (hf : (cfg0.win 2).flush t = true) :
    (dats m 0 c).flushed 2 t = ((cfg0.win 2).blk t).view.read (Elt Ideal) (maskDiceArr (arrA m c) (arrB m c)) := by
  have hN : t.val < 128 := lt_of_lt_of_eq t.isLt (show cfg0.N = 128 from N_0)
  have h1 : t.val % 32 = 31 := (flush0_2 t).mp hf
  obtain ⟨-, -, -, -, -, -, e0, e1, e2⟩ := idx_at t
  show (cfg0.win 2).cut (grid0.coords t) ((dats m 0 c).after 2 t) = _
  rw [after0_2, outsAt_out m c t.val t.isLt h1]
  refine funext fun (y : S1x100x20.Idx) => ?_
  obtain ⟨u, q, tt, rfl⟩ : ∃ (u : Fin 1) (q : Fin 100) (tt : Fin 20), y = ix3 u q tt := ⟨y 0, y 1, y 2, eq_ix3 y⟩
  rw [View.read_apply]
  have he : (((cfg0.win 2).blk t).view.emb (ix3 u q tt) : S4x100x20.Idx) = ix3 (⟨t.val / 32, by omega⟩ : Fin 4) q tt :=
    funext fun a => Fin.ext (by
      have hu : u.val = 0 := by omega
      match a with
      | ⟨0, _⟩ => show win0_2.index t (0 : Fin 3) * 1 + 1 * u.val = t.val / 32; rw [e0, hu]; omega
      | ⟨1, _⟩ => show win0_2.index t (1 : Fin 3) * 100 + 1 * q.val = q.val; rw [e1]; omega
      | ⟨2, _⟩ => show win0_2.index t (2 : Fin 3) * 20 + 1 * tt.val = tt.val; rw [e2]; omega)
  rw [he, maskDiceArr_apply]
  obtain ⟨a0, a1, a2, a3⟩ := acc_last m c t.val t.isLt h1 ⟨t.val / 32, by omega⟩ rfl q tt
  show k0_pay3 (F := Ideal) (accAt m c t.val t.isLt).2.2.1 (accAt m c t.val t.isLt).2.2.2 (accAt m c t.val t.isLt).2.1
      (accAt m c t.val t.isLt).1 (ix3 u q tt) = _
  rw [pay3_apply, a0, a1, a2, a3]
  rfl

/-- Every entry of the result lies in the block written after the last tile of its batch entry. -/
theorem cover (c : Dev nD) (i : S4x100x20.Idx) :
    ∃ t : Fin cfg0.N, (cfg0.win 2).flush t = true ∧ i ∈ ((cfg0.win 2).blk t).view.set := by
  have hN : cfg0.N = 128 := N_0
  have h0 : (i 0).val < 4 := (i 0).isLt
  have h1 : (i 1).val < 100 := (i 1).isLt
  have h2 : (i 2).val < 20 := (i 2).isLt
  have ht : 32 * (i 0).val + 31 < cfg0.N := by omega
  refine ⟨⟨32 * (i 0).val + 31, ht⟩, (flush0_2 _).mpr (by show (32 * (i 0).val + 31) % 32 = 31; omega), ?_⟩
  obtain ⟨-, -, -, -, -, -, e0, e1, e2⟩ := idx_at ⟨32 * (i 0).val + 31, ht⟩
  have ed : (32 * (i 0).val + 31) / 32 = (i 0).val := by omega
  show i ∈ ((View.whole main_v2).slice (win0_2.rect ⟨32 * (i 0).val + 31, ht⟩)).set
  rw [View.set_slice_whole, Rect.mem_set_unit]
  intro a
  match a with
  | ⟨0, _⟩ =>
    show win0_2.index ⟨32 * (i 0).val + 31, ht⟩ (0 : Fin 3) * 1 ≤ (i 0).val
      ∧ (i 0).val < win0_2.index ⟨32 * (i 0).val + 31, ht⟩ (0 : Fin 3) * 1 + 1
    rw [e0]; show (32 * (i 0).val + 31) / 32 * 1 ≤ (i 0).val ∧ (i 0).val < (32 * (i 0).val + 31) / 32 * 1 + 1; omega
  | ⟨1, _⟩ =>
    show win0_2.index ⟨32 * (i 0).val + 31, ht⟩ (1 : Fin 3) * 100 ≤ (i 1).val
      ∧ (i 1).val < win0_2.index ⟨32 * (i 0).val + 31, ht⟩ (1 : Fin 3) * 100 + 100
    rw [e1]; omega
  | ⟨2, _⟩ =>
    show win0_2.index ⟨32 * (i 0).val + 31, ht⟩ (2 : Fin 3) * 20 ≤ (i 2).val
      ∧ (i 2).val < win0_2.index ⟨32 * (i 0).val + 31, ht⟩ (2 : Fin 3) * 20 + 20
    rw [e2]; omega

/-- So the region leaves the mask-and-dice cost in its result array. -/
theorem final (c : Dev nD) : (dats m 0 c).arrAt 2 cfg0.N = maskDiceArr (arrA m c) (arrB m c) :=
  (dats m 0 c).arrAt_eq_of_cover 2 (maskDiceArr (arrA m c) (arrB m c)) (flushed_eq m c) (cover c)

/-- The flattened masks the region reads are the host's reshapes of the two mask arguments. -/
theorem arrA_eq (c : Dev nD) :
    arrA m c = Cert.ReferenceIdeal.Read.val_main_v15 (F := Ideal) (m ((c : Thread nD τ).loc main_arg1)) := by
  show StableHlo.after hostOps0 (fun b => m (c, b)) (Proc.devRef .tc main_v0) = _
  after_results
  rfl
theorem arrB_eq (c : Dev nD) :
    arrB m c = Cert.ReferenceIdeal.Read.val_main_v16 (F := Ideal) (m ((c : Thread nD τ).loc main_arg2)) := by
  show StableHlo.after hostOps0 (fun b => m (c, b)) (Proc.devRef .tc main_v1) = _
  after_results
  rfl

set_option maxRecDepth 8192 in
set_option maxHeartbeats 4000000 in
/-- The host operations after the region add the class term to the region's result. -/
theorem tail_eq (c : Dev nD) :
    Pipeline.afterTail₀ cfgs (dats m) 0 (V0 m) [hostOps1, hostOps1_1, hostOps1_2] c main_v20
      = addf (F := Ideal) (s := S4x100x20) (φ := .f32) ((dats m 0 c).arrAt 2 cfg0.N)
          (classTerm (m ((c : Thread nD τ).loc main_arg0)) (m ((c : Thread nD τ).loc main_arg3))) := by
  have hv2 : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  simp only [hostOps1, hostOps1_1, hostOps1_2, List.flatten_cons, List.flatten_nil, List.append_nil, List.cons_append, List.nil_append]
  after_results_simp
  rw [hv2, h0, h3]
  rfl

/-- The specification's result: the mask-and-dice cost of the flattened masks plus the class term. -/
def result (c : Dev nD) : (⟨S4x100x20, .f32⟩ : BufTy).Contents (Elt Ideal) :=
  addf (F := Ideal) (s := S4x100x20) (φ := .f32)
    (maskDiceArr (Cert.ReferenceIdeal.Read.val_main_v15 (F := Ideal) (m ((c : Thread nD τ).loc main_arg1)))
      (Cert.ReferenceIdeal.Read.val_main_v16 (F := Ideal) (m ((c : Thread nD τ).loc main_arg2))))
    (classTerm (m ((c : Thread nD τ).loc main_arg0)) (m ((c : Thread nD τ).loc main_arg3)))

/-- Every run of the idealized kernel program ends with its result at the specification's value, the arguments as
    they were. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans
        ((tail_eq m c).trans (by rw [final m c, arrA_eq m c, arrB_eq m c]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KV

end
-- ==== Proof.RefValue.lean ====
/-
  The reference computes the same cost: read entry by entry, its result at (b, q, t) is
  (1 · L1 + class) + 1 · (1 − (2 · dot + 1) / ((sa + sb) + 1)) with each sum started from the literal zero, which is
  the specification's mask-and-dice cost plus the class term once the two summands are swapped (addition of
  extended reals is commutative and associative, with no side condition).
-/
import proofs.«133816_j59287728554541_1_alg».proof.Proof.Gen.ReferenceIdeal.Read
import proofs.«133816_j59287728554541_1_alg».proof.Proof.CostSpec
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.CostSpec

variable (x1 : (⟨S4x100x128x128, .f32⟩ : BufTy).Contents (Elt Ideal)) (x2 : (⟨S4x20x128x128, .f32⟩ : BufTy).Contents (Elt Ideal))

/-- The pairwise L1 sum: zero plus the sum over the pixels of |out − tgt|. -/
theorem l1_ref (b : Fin 4) (q : Fin 100) (t : Fin 20) :
    val_main_v23 (F := Ideal) x1 x2 (ix3 b q t)
      = 0 + ∑ k : Fin 16384, FloatOps.absf (F := Ideal) (φ := .f32)
          (val_main_v15 (F := Ideal) x1 (ix3 b q k) - val_main_v16 (F := Ideal) x2 (ix3 b t k)) := by
  rw [val_main_v23_apply]
  refine congr (congrArg _ Ideal.ofBits_zero_f32) (Finset.sum_congr rfl fun k _ => ?_)
  rw [val_main_v22_apply, val_main_v21_apply, val_main_v19_apply, val_main_v17_apply, val_main_v20_apply, val_main_v18_apply]
  have ea : idx_main_v17 (idx_main_v19 (idx_main_v23 (ix3 b q t) k)) = ix3 b q k :=
    funext fun a => Fin.ext (by match a with | ⟨0, _⟩ => rfl | ⟨1, _⟩ => rfl | ⟨2, _⟩ => rfl)
  have eb : idx_main_v18 (idx_main_v20 (idx_main_v23 (ix3 b q t) k)) = ix3 b t k :=
    funext fun a => Fin.ext (by match a with | ⟨0, _⟩ => rfl | ⟨1, _⟩ => rfl | ⟨2, _⟩ => rfl)
  rw [ea, eb]
  rfl

/-- The batched product: the sum over the pixels of out · tgt. -/
theorem dot_ref (b : Fin 4) (q : Fin 100) (t : Fin 20) :
    val_main_v24 (F := Ideal) x1 x2 (ix3 b q t)
      = ∑ k : Fin 16384, val_main_v15 (F := Ideal) x1 (ix3 b q k) * val_main_v16 (F := Ideal) x2 (ix3 b t k) := by
  rw [val_main_v24_apply]
  refine Finset.sum_congr rfl fun k _ => ?_
  have ea : lidx_main_v24 (ix3 b q t) k = ix3 b q k :=
    funext fun a => Fin.ext (by match a with | ⟨0, _⟩ => rfl | ⟨1, _⟩ => rfl | ⟨2, _⟩ => rfl)
  have eb : ridx_main_v24 (ix3 b q t) k = ix3 b t k :=
    funext fun a => Fin.ext (by match a with | ⟨0, _⟩ => rfl | ⟨1, _⟩ => rfl | ⟨2, _⟩ => rfl)
  rw [ea, eb]

/-- The predictions' row sums, broadcast over the targets. -/
theorem sa_ref (b : Fin 4) (q : Fin 100) (t : Fin 20) :
    val_main_v29 (F := Ideal) x1 (ix3 b q t) = 0 + ∑ k : Fin 16384, val_main_v15 (F := Ideal) x1 (ix3 b q k) := by
  rw [val_main_v29_apply, val_main_v26_apply, val_main_v25_apply]
  refine congr (congrArg _ Ideal.ofBits_zero_f32) (Finset.sum_congr rfl fun k _ => ?_)
  exact congrArg (val_main_v15 (F := Ideal) x1)
    (funext fun a => Fin.ext (by match a with | ⟨0, _⟩ => rfl | ⟨1, _⟩ => rfl | ⟨2, _⟩ => rfl))

/-- The targets' row sums, broadcast over the predictions. -/
theorem sb_ref (b : Fin 4) (q : Fin 100) (t : Fin 20) :
    val_main_v30 (F := Ideal) x2 (ix3 b q t) = 0 + ∑ k : Fin 16384, val_main_v16 (F := Ideal) x2 (ix3 b t k) := by
  rw [val_main_v30_apply, val_main_v28_apply, val_main_v27_apply]
  refine congr (congrArg _ Ideal.ofBits_zero_f32) (Finset.sum_congr rfl fun k _ => ?_)
  exact congrArg (val_main_v16 (F := Ideal) x2)
    (funext fun a => Fin.ext (by match a with | ⟨0, _⟩ => rfl | ⟨1, _⟩ => rfl | ⟨2, _⟩ => rfl))

/-- The reference's result is the mask-and-dice cost of the flattened masks plus the class term. -/
theorem result_eq (x0 : (⟨S4x100x80, .f32⟩ : BufTy).Contents (Elt Ideal)) (x3 : (⟨S4x20, .i32⟩ : BufTy).Contents (Elt Ideal)) :
    val_main_v48 (F := Ideal) x0 x1 x2 x3
      = addf (F := Ideal) (s := S4x100x20) (φ := .f32)
          (maskDiceArr (val_main_v15 (F := Ideal) x1) (val_main_v16 (F := Ideal) x2)) (val_main_v44 (F := Ideal) x0 x3) := by
  funext i
  obtain ⟨b, q, t, rfl⟩ : ∃ (b : Fin 4) (q : Fin 100) (t : Fin 20), i = ix3 b q t := ⟨i 0, i 1, i 2, eq_ix3 i⟩
  show _ = maskDiceArr _ _ (ix3 b q t) + val_main_v44 (F := Ideal) x0 x3 (ix3 b q t)
  rw [maskDiceArr_apply]
  unfold maskDice closing
  rw [val_main_v48_apply, val_main_v45_apply, val_main_v42_apply, val_main_v47_apply, val_main_v40_apply, val_main_v38_apply,
    val_main_v35_apply, val_main_v33_apply, val_main_v37_apply, val_main_v31_apply, l1_ref, dot_ref, sa_ref, sb_ref,
    zero_add, zero_add, zero_add]
  exact add_right_comm _ _ _

end Cert.ReferenceIdeal.RefValue

end
-- ==== Proof.lean ====
/-
  The five claims for the pairwise matching-cost kernel against its jnp reference.

  Both programs return, for each batch entry b, prediction q and target t,
    (Σₙ |out − tgt|) + (1 − (2 · Σₙ out · tgt + 1) / (Σₙ out + Σₙ tgt + 1)) − softmax(scores)[b, q, label[b, t]],
  each factor 1.0 kept as written. The kernel accumulates the four sums tile by tile over the 16384 pixels (32 tiles of
  512) in scratch memory and writes the mask-and-dice part after the last tile; the program then adds the class term
  with the same host operations as the reference. Over the extended reals the tiled sums are the whole sums (addition
  is commutative and associative there without any finiteness condition), and the two programs differ only in the
  order of the last two additions. The idealization rewrote nothing, so its conjunct is trivial; the kernel's two
  frames are the generated ones, the reference's frame is its run with the result dropped.
-/
import proofs.«133816_j59287728554541_1_alg».proof.Defs
import proofs.«133816_j59287728554541_1_alg».proof.Proof.Gen.Kernel
import proofs.«133816_j59287728554541_1_alg».proof.Proof.Gen.Kernel.Frame
import proofs.«133816_j59287728554541_1_alg».proof.Proof.Gen.KernelIdeal
import proofs.«133816_j59287728554541_1_alg».proof.Proof.Gen.KernelIdeal.Frame
import proofs.«133816_j59287728554541_1_alg».proof.Proof.Gen.ReferenceIdeal
import proofs.«133816_j59287728554541_1_alg».proof.Proof.Gen.Pre_finite_inputs
import proofs.«133816_j59287728554541_1_alg».proof.Proof.Gen.ReferenceIdeal.Read
import proofs.«133816_j59287728554541_1_alg».proof.Proof.KernelValue
import proofs.«133816_j59287728554541_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's value of arguments that agree. -/
theorem algebraic : Cert.algebraic_KernelIdeal_ReferenceIdeal := by
  intro m ρ m' ρ' _ hagree
  refine ⟨fun c => Cert.KernelIdeal.KV.result m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
